-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x4096 : Shape := ⟨2, ![4096, 4096]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S4096x1 : Shape := ⟨2, ![4096, 1]⟩
abbrev S1x4096 : Shape := ⟨2, ![1, 4096]⟩
abbrev S_ : Shape := ⟨0, ![]⟩
abbrev S4096x2 : Shape := ⟨2, ![4096, 2]⟩

abbrev nBuf : Space → Nat
  | .hbm => 166
  | .vmem => 6
  | .smem => 0
  | _ => 0

abbrev hbmTy0_0 (i : Nat) : BufTy := match i % 128 with
  | 0 => ⟨S4096x2048, .f32⟩
  | 1 => ⟨S4096, .i32⟩
  | 2 => ⟨S4096x4096, .f32⟩
  | 3 => ⟨S4096x1, .i32⟩
  | 4 => ⟨S1x4096, .i32⟩
  | 5 => ⟨S4096x4096, .i32⟩
  | 6 => ⟨S4096x4096, .i32⟩
  | 7 => ⟨S4096x4096, .i1⟩
  | 8 => ⟨S_, .f32⟩
  | 9 => ⟨S_, .f32⟩
  | 10 => ⟨S4096x4096, .f32⟩
  | 11 => ⟨S4096x4096, .f32⟩
  | 12 => ⟨S_, .f32⟩
  | 13 => ⟨S4096, .f32⟩
  | 14 => ⟨S_, .f32⟩
  | 15 => ⟨S4096x4096, .f32⟩
  | 16 => ⟨S4096x4096, .f32⟩
  | 17 => ⟨S_, .f32⟩
  | 18 => ⟨S4096, .f32⟩
  | 19 => ⟨S4096x1, .f32⟩
  | 20 => ⟨S4096x4096, .f32⟩
  | 21 => ⟨S4096x4096, .i1⟩
  | 22 => ⟨S4096x4096, .i1⟩
  | 23 => ⟨S4096x4096, .i1⟩
  | 24 => ⟨S4096x4096, .i32⟩
  | 25 => ⟨S_, .i1⟩
  | 26 => ⟨S_, .i32⟩
  | 27 => ⟨S4096, .i1⟩
  | 28 => ⟨S4096, .i32⟩
  | 29 => ⟨S_, .i32⟩
  | 30 => ⟨S4096, .i32⟩
  | 31 => ⟨S4096, .i32⟩
  | 32 => ⟨S4096x1, .f32⟩
  | 33 => ⟨S4096x4096, .f32⟩
  | 34 => ⟨S4096x4096, .i1⟩
  | 35 => ⟨S4096x4096, .i1⟩
  | 36 => ⟨S4096x4096, .i1⟩
  | 37 => ⟨S4096x4096, .i1⟩
  | 38 => ⟨S4096x4096, .i32⟩
  | 39 => ⟨S_, .i1⟩
  | 40 => ⟨S_, .i32⟩
  | 41 => ⟨S4096, .i1⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x1, .i32⟩
  | 62 => ⟨S4096x2, .i32⟩
  | 63 => ⟨S4096, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096, .i32⟩
  | 73 => ⟨S1x4096, .i32⟩
  | 74 => ⟨S4096x1, .i32⟩
  | 75 => ⟨S4096x4096, .i32⟩
  | 76 => ⟨S4096x4096, .i32⟩
  | 77 => ⟨S4096x4096, .i1⟩
  | 78 => ⟨S1x4096, .i32⟩
  | 79 => ⟨S4096x1, .i32⟩
  | 80 => ⟨S4096x4096, .i32⟩
  | 81 => ⟨S4096x4096, .i32⟩
  | 82 => ⟨S4096x4096, .i1⟩
  | 83 => ⟨S4096x4096, .i1⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S4096x4096, .f32⟩
  | 93 => ⟨S_, .f32⟩
  | 94 => ⟨S4096x4096, .f32⟩
  | 95 => ⟨S4096x4096, .f32⟩
  | 96 => ⟨S_, .f32⟩
  | 97 => ⟨S4096, .f32⟩
  | 98 => ⟨S4096x1, .f32⟩
  | 99 => ⟨S4096x4096, .f32⟩
  | 100 => ⟨S4096x4096, .i1⟩
  | 101 => ⟨S4096x4096, .i1⟩
  | 102 => ⟨S4096x4096, .i1⟩
  | 103 => ⟨S4096x4096, .i32⟩
  | 104 => ⟨S_, .i1⟩
  | 105 => ⟨S_, .i32⟩
  | 106 => ⟨S4096, .i1⟩
  | 107 => ⟨S4096, .i32⟩
  | 108 => ⟨S_, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S4096x1, .i32⟩
  | _ => ⟨S4096x2048, .f32⟩

abbrev hbmTy0_1 (i : Nat) : BufTy := match i % 128 with
  | 0 => ⟨S4096x2, .i32⟩
  | 1 => ⟨S4096, .f32⟩
  | 2 => ⟨S4096, .i32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x1, .i32⟩
  | 19 => ⟨S4096x2, .i32⟩
  | 20 => ⟨S4096, .f32⟩
  | 21 => ⟨S4096, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .f32⟩
  | 28 => ⟨S4096, .f32⟩
  | 29 => ⟨S4096, .f32⟩
  | 30 => ⟨S4096, .f32⟩
  | 31 => ⟨S4096, .f32⟩
  | 32 => ⟨S4096, .f32⟩
  | 33 => ⟨S4096, .f32⟩
  | 34 => ⟨S_, .f32⟩
  | 35 => ⟨S_, .f32⟩
  | 36 => ⟨S_, .f32⟩
  | 37 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_call1_v0 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call2_v0 : Ref sig .tc := ⟨.hbm, 24, rfl⟩
abbrev main_call2_c : Ref sig .tc := ⟨.hbm, 25, rfl⟩
abbrev main_call2_c_0 : Ref sig .tc := ⟨.hbm, 26, rfl⟩
abbrev main_call2_v1_0 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call3_v0 : Ref sig .tc := ⟨.hbm, 38, rfl⟩
abbrev main_call3_c : Ref sig .tc := ⟨.hbm, 39, rfl⟩
abbrev main_call3_c_0 : Ref sig .tc := ⟨.hbm, 40, rfl⟩
abbrev main_call3_v1_0 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_call4_v0 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call5_v0 : Ref sig .tc := ⟨.hbm, 103, rfl⟩
abbrev main_call5_c : Ref sig .tc := ⟨.hbm, 104, rfl⟩
abbrev main_call5_c_0 : Ref sig .tc := ⟨.hbm, 105, rfl⟩
abbrev main_call5_v1_0 : Ref sig .tc := ⟨.hbm, 106, rfl⟩
abbrev main_v74 : Ref sig .tc := ⟨.hbm, 107, rfl⟩
abbrev main_c_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_15 : Ref sig .tc := ⟨.hbm, 112, rfl⟩
abbrev main_v78 : Ref sig .tc := ⟨.hbm, 113, rfl⟩
abbrev main_v79 : Ref sig .tc := ⟨.hbm, 114, rfl⟩
abbrev main_c_16 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_17 : Ref sig .tc := ⟨.hbm, 119, rfl⟩
abbrev main_v83 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_19 : Ref sig .tc := ⟨.hbm, 131, rfl⟩
abbrev main_v93 : Ref sig .tc := ⟨.hbm, 132, rfl⟩
abbrev main_v94 : Ref sig .tc := ⟨.hbm, 133, rfl⟩
abbrev main_c_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_23 : Ref sig .tc := ⟨.hbm, 150, rfl⟩
abbrev main_v108 : Ref sig .tc := ⟨.hbm, 151, rfl⟩
abbrev main_v109 : Ref sig .tc := ⟨.hbm, 152, rfl⟩
abbrev main_call6_cst : Ref sig .tc := ⟨.hbm, 153, rfl⟩
abbrev main_call6_v0 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_24 : Ref sig .tc := ⟨.hbm, 162, rfl⟩
abbrev main_v117 : Ref sig .tc := ⟨.hbm, 163, rfl⟩
abbrev main_cst_25 : Ref sig .tc := ⟨.hbm, 164, rfl⟩
abbrev main_v118 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  dot_S512x2048_S512x2048_S512x512_1_1_0_0_n_n_wf : DotDims.WF S512x2048 S512x2048 S512x512 [1] [1] [0] [0] [] []
  gather_S4096x4096_S4096x2_S4096_n_01_n_n_01_1_11_wf : GatherDims.WF S4096x4096 S4096x2 S4096 [] [0, 1] [] [0, 1] [] 1 ![1, 1]
  gather_S4096_S4096x1_S4096_n_0_n_n_0_1_1_wf : GatherDims.WF S4096 S4096x1 S4096 [] [0] [] [0] [] 1 ![1]
  gather_S4096x4096_S4096x1_S4096x4096_1_0_n_n_0_1_14096_wf : GatherDims.WF S4096x4096 S4096x1 S4096x4096 [1] [0] [] [0] [] 1 ![1, 4096]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x4096_S4096x2_S4096_n_01_n_n_01_1_11 : GatherDims S4096x4096 S4096x2 S4096 where
  offsetDims := []
  collapsedSliceDims := [0, 1]
  operandBatchingDims := []
  startIndicesBatchingDims := []
  startIndexMap := [0, 1]
  indexVectorDim := 1
  sliceSizes := ![1, 1]
  wf := gather_S4096x4096_S4096x2_S4096_n_01_n_n_01_1_11_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩
abbrev S4096x2 : Shape := ⟨2, ![4096, 2]⟩

abbrev nBuf : Space → Nat
  | .hbm => 184
  | .vmem => 0
  | .smem => 0
  | _ => 0

abbrev hbmTy0_0 (i : Nat) : BufTy := match i % 128 with
  | 0 => ⟨S4096x2048, .f32⟩
  | 1 => ⟨S4096, .i32⟩
  | 2 => ⟨S4096x2048, .f32⟩
  | 3 => ⟨S_, .f32⟩
  | 4 => ⟨S4096, .f32⟩
  | 5 => ⟨S4096x1, .f32⟩
  | 6 => ⟨S1x4096, .f32⟩
  | 7 => ⟨S4096x4096, .f32⟩
  | 8 => ⟨S4096x4096, .f32⟩
  | 9 => ⟨S4096x4096, .f32⟩
  | 10 => ⟨S2048x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S_, .f32⟩
  | 18 => ⟨S4096x4096, .f32⟩
  | 19 => ⟨S4096x4096, .f32⟩
  | 20 => ⟨S4096x4096, .f32⟩
  | 21 => ⟨S4096x1, .i32⟩
  | 22 => ⟨S1x4096, .i32⟩
  | 23 => ⟨S4096x4096, .i32⟩
  | 24 => ⟨S4096x4096, .i32⟩
  | 25 => ⟨S4096x4096, .i1⟩
  | 26 => ⟨S_, .f32⟩
  | 27 => ⟨S_, .f32⟩
  | 28 => ⟨S4096x4096, .f32⟩
  | 29 => ⟨S4096x4096, .f32⟩
  | 30 => ⟨S_, .f32⟩
  | 31 => ⟨S4096, .f32⟩
  | 32 => ⟨S_, .f32⟩
  | 33 => ⟨S4096x4096, .f32⟩
  | 34 => ⟨S4096x4096, .f32⟩
  | 35 => ⟨S_, .f32⟩
  | 36 => ⟨S4096, .f32⟩
  | 37 => ⟨S4096x1, .f32⟩
  | 38 => ⟨S4096x4096, .f32⟩
  | 39 => ⟨S4096x4096, .i1⟩
  | 40 => ⟨S4096x4096, .i1⟩
  | 41 => ⟨S4096x4096, .i1⟩
  | 42 => ⟨S4096x4096, .i32⟩
  | 43 => ⟨S_, .i1⟩
  | 44 => ⟨S_, .i32⟩
  | 45 => ⟨S4096, .i1⟩
  | 46 => ⟨S4096, .i32⟩
  | 47 => ⟨S_, .i32⟩
  | 48 => ⟨S4096, .i32⟩
  | 49 => ⟨S4096, .i32⟩
  | 50 => ⟨S4096x1, .f32⟩
  | 51 => ⟨S4096x4096, .f32⟩
  | 52 => ⟨S4096x4096, .i1⟩
  | 53 => ⟨S4096x4096, .i1⟩
  | 54 => ⟨S4096x4096, .i1⟩
  | 55 => ⟨S4096x4096, .i1⟩
  | 56 => ⟨S4096x4096, .i32⟩
  | 57 => ⟨S_, .i1⟩
  | 58 => ⟨S_, .i32⟩
  | 59 => ⟨S4096, .i1⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S4096, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S4096, .i32⟩
  | 91 => ⟨S1x4096, .i32⟩
  | 92 => ⟨S4096x1, .i32⟩
  | 93 => ⟨S4096x4096, .i32⟩
  | 94 => ⟨S4096x4096, .i32⟩
  | 95 => ⟨S4096x4096, .i1⟩
  | 96 => ⟨S1x4096, .i32⟩
  | 97 => ⟨S4096x1, .i32⟩
  | 98 => ⟨S4096x4096, .i32⟩
  | 99 => ⟨S4096x4096, .i32⟩
  | 100 => ⟨S4096x4096, .i1⟩
  | 101 => ⟨S4096x4096, .i1⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x4096, .f32⟩
  | 111 => ⟨S_, .f32⟩
  | 112 => ⟨S4096x4096, .f32⟩
  | 113 => ⟨S4096x4096, .f32⟩
  | 114 => ⟨S_, .f32⟩
  | 115 => ⟨S4096, .f32⟩
  | 116 => ⟨S4096x1, .f32⟩
  | 117 => ⟨S4096x4096, .f32⟩
  | 118 => ⟨S4096x4096, .i1⟩
  | 119 => ⟨S4096x4096, .i1⟩
  | 120 => ⟨S4096x4096, .i1⟩
  | 121 => ⟨S4096x4096, .i32⟩
  | 122 => ⟨S_, .i1⟩
  | 123 => ⟨S_, .i32⟩
  | 124 => ⟨S4096, .i1⟩
  | 125 => ⟨S4096, .i32⟩
  | 126 => ⟨S_, .i32⟩
  | 127 => ⟨S4096, .i32⟩
  | _ => ⟨S4096x2048, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x1, .i32⟩
  | 18 => ⟨S4096x2, .i32⟩
  | 19 => ⟨S4096, .f32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S4096x1, .i32⟩
  | 37 => ⟨S4096x2, .i32⟩
  | 38 => ⟨S4096, .f32⟩
  | 39 => ⟨S4096, .f32⟩
  | 40 => ⟨S_, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S_, .f32⟩
  | 53 => ⟨S_, .f32⟩
  | 54 => ⟨S_, .f32⟩
  | 55 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_call1_v0 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_call2_v0 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call3_v0 : Ref sig .tc := ⟨.hbm, 42, rfl⟩
abbrev main_call3_c : Ref sig .tc := ⟨.hbm, 43, rfl⟩
abbrev main_call3_c_0 : Ref sig .tc := ⟨.hbm, 44, rfl⟩
abbrev main_call3_v1_0 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call4_v0 : Ref sig .tc := ⟨.hbm, 56, rfl⟩
abbrev main_call4_c : Ref sig .tc := ⟨.hbm, 57, rfl⟩
abbrev main_call4_c_0 : Ref sig .tc := ⟨.hbm, 58, rfl⟩
abbrev main_call4_v1_0 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_call5_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call6_v0 : Ref sig .tc := ⟨.hbm, 121, rfl⟩
abbrev main_call6_c : Ref sig .tc := ⟨.hbm, 122, rfl⟩
abbrev main_call6_c_0 : Ref sig .tc := ⟨.hbm, 123, rfl⟩
abbrev main_call6_v1_0 : Ref sig .tc := ⟨.hbm, 124, rfl⟩
abbrev main_v87 : Ref sig .tc := ⟨.hbm, 125, rfl⟩
abbrev main_c_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_18 : Ref sig .tc := ⟨.hbm, 130, rfl⟩
abbrev main_v91 : Ref sig .tc := ⟨.hbm, 131, rfl⟩
abbrev main_v92 : Ref sig .tc := ⟨.hbm, 132, rfl⟩
abbrev main_c_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_22 : Ref sig .tc := ⟨.hbm, 149, rfl⟩
abbrev main_v106 : Ref sig .tc := ⟨.hbm, 150, rfl⟩
abbrev main_v107 : Ref sig .tc := ⟨.hbm, 151, rfl⟩
abbrev main_c_23 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_24 : Ref sig .tc := ⟨.hbm, 156, rfl⟩
abbrev main_v111 : Ref sig .tc := ⟨.hbm, 157, rfl⟩
abbrev main_v112 : Ref sig .tc := ⟨.hbm, 158, rfl⟩
abbrev main_c_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_call7_cst : Ref sig .tc := ⟨.hbm, 171, rfl⟩
abbrev main_call7_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_27 : Ref sig .tc := ⟨.hbm, 180, rfl⟩
abbrev main_v130 : Ref sig .tc := ⟨.hbm, 181, rfl⟩
abbrev main_cst_28 : Ref sig .tc := ⟨.hbm, 182, rfl⟩
abbrev main_v131 : Ref sig .tc := ⟨.hbm, 183, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  dot_S4096x2048_S2048x4096_S4096x4096_1_0_0_1_n_n_wf : DotDims.WF S4096x2048 S2048x4096 S4096x4096 [1] [0] [0] [1] [] []
  gather_S4096x4096_S4096x2_S4096_n_01_n_n_01_1_11_wf : GatherDims.WF S4096x4096 S4096x2 S4096 [] [0, 1] [] [0, 1] [] 1 ![1, 1]
  gather_S4096_S4096x1_S4096_n_0_n_n_0_1_1_wf : GatherDims.WF S4096 S4096x1 S4096 [] [0] [] [0] [] 1 ![1]
  gather_S4096x4096_S4096x1_S4096x4096_1_0_n_n_0_1_14096_wf : GatherDims.WF S4096x4096 S4096x1 S4096x4096 [1] [0] [] [0] [] 1 ![1, 4096]

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x4096_S4096x2_S4096_n_01_n_n_01_1_11 : GatherDims S4096x4096 S4096x2 S4096 where
  offsetDims := []
  collapsedSliceDims := [0, 1]
  operandBatchingDims := []
  startIndicesBatchingDims := []
  startIndexMap := [0, 1]
  indexVectorDim := 1
  sliceSizes := ![1, 1]
  wf := gather_S4096x4096_S4096x2_S4096_n_01_n_n_01_1_11_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf

class Facts : Prop extends Facts₀ where

variable [Facts]
-- ==== Proof.WBody.lean ====
/-
  The kernel body's run, at any float instance.

  The body loads its two input blocks whole (512 rows of 2048 columns each), computes one 512 × 512 block of the
  distance matrix from them, loads the output block (the value is not used) and stores the computed block over the
  whole output buffer. So, handed the two input buffers at contents x0 and x1 and the output buffer at anything, it
  ends with the inputs as they were and the output at the payload of (x0, x1): the one store covers the buffer.
-/
import proofs.«117172_j65712999629574_1_alg».proof.Proof.Gen.Kernel.Launch
import proofs.«117172_j65712999629574_1_alg».proof.Proof.Gen.Kernel.Skeleton
import proofs.«117172_j65712999629574_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block and the whole output block, as the rectangles the body's accesses name. -/
abbrev rIn : Rect S512x2048 := Rect.unit (s := S512x2048) ![0, 0] S512x2048.size inb_S512x2048_S512x2048_0_0
abbrev rOut : Rect S512x512 := Rect.unit (s := S512x512) ![0, 0] S512x512.size inb_S512x512_S512x512_0_0

/-- What the body leaves in the output buffer, from the two input buffers' contents: its one store, of the payload
    of the two loaded blocks, over the whole buffer. -/
def outBlock (x0 : Vec F S512x2048 .f32) (x1 : Vec F S512x2048 .f32) : Vec F S512x512 .f32 :=
  View.canon [⟨rOut, k0_pay1 (View.ld x0 rIn) (View.ld x1 rIn)⟩]

/-- The store's rectangle is the whole buffer, so it covers it. -/
theorem outCover (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs at x0, x1 and the output at anything run to the continuation holding the
    inputs unchanged and the output at `outBlock x0 x1`. -/
theorem sound_kernel (c : Dev nD) (E : Set ℕ) (i : grid0.Coords)
    (arg2 : Memref sig .tc .vmem S512x2048 .f32) (harg2 : arg2.IsWhole)
    (arg3 : Memref sig .tc .vmem S512x2048 .f32) (harg3 : arg3.IsWhole)
    (arg4 : Memref sig .tc .vmem S512x512 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__pairwise_dist_kernel i arg2 harg2 arg3 harg3 arg4 harg4) K := by
  simp only [cc0__pairwise_dist_kernel_eq_skeleton]; unfold cc0__pairwise_dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Hand

end
-- ==== Proof.WDat.lean ====
/-
  The pipeline's proof data on a core, and the body obligation at every grid point.

  The grid has 8 × 8 points. At point (i, j) the first input window holds rows 512·i … 512·i+511 of the argument
  matrix, the second rows 512·j … 512·j+511 of the SAME matrix, and the output window is block (i, j) of the result.
  Both input windows read one array, so each holds it at half the full share; the output array is held whole.
  After the body the input buffers hold their blocks still, and the output buffer the block computed from them.
-/
import proofs.«117172_j65712999629574_1_alg».proof.Proof.WBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The invariant between the points: the scoped buffers no window stages (there are none), untouched. -/
abbrev Inv (c : Dev nD) : sProp 𝕄 :=
  Pipeline.scopedRest (Ix := Unit) (Name := ℕ) (U := UR sig nD τ) (Lvl := ℕ) (Val := Elt F) spec0 c

/-- The proof data: the arrays as the region finds them; after the body each input buffer at its block, the output
    buffer at the block computed from the two; the two input windows at the two halves of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Inv c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

/-- An input window's current buffer holds its block at every point, fetched there or not: where the first window is
    not fetched (the column coordinate moved, the row coordinate did not) its index has not moved either. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WLaunch.lean ====
/-
  The windows' arrays as separate buffers, and @main's lines after the region.

  The two input windows read ONE array, each at half the full share; the output window's array is held whole. So
  "the pipeline's arrays at contents F" and "the two distinct buffers behind them, whole, at contents Vx" are the
  same thing exactly when F agrees with Vx at the shared argument for both input windows and at the result for the
  output window: the full share of the argument splits into its two halves and the halves join again.
  After the region @main runs 147 host operations in 15 stretches; none of them writes an argument or the
  region's result, and each touches unscoped TensorCore buffers only.
-/
import proofs.«117172_j65712999629574_1_alg».proof.Proof.WDat
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The lines after the region -/

/-- @main's host operations after the region, stretch by stretch. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14]

/-- Each touches unscoped TensorCore buffers only. -/
theorem tail_sub : ∀ ops ∈ (tailOpss : List (List (HloOp τ sig (Elt F)))), ∀ op ∈ ops, op.bufs ⊆ Pipeline.ucRefs τ sig := by
  intro ops hops op hop
  simp only [tailOpss, List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- None allocates a buffer. -/
theorem tail_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl | rfl | rfl | rfl | rfl | rfl | rfl | rfl | rfl | rfl | rfl
  all_goals ((repeat (cases hop with | head => rfl | tail _ hop => ?_)); exact nomatch hop)

/-- None writes an argument array or the region's result: each writes its own result buffer, which is none of them. -/
theorem tail_keeps (r : Ref sig .tc) (hr : r = main_arg0 ∨ r = main_arg1 ∨ r = main_v0) :
    ∀ ops ∈ (tailOpss : List (List (HloOp τ sig (Elt F)))), ∀ op ∈ ops, Proc.devRef .tc r ∉ op.writes := by
  intro ops hops op hop
  simp only [tailOpss, List.mem_cons, List.mem_nil_iff, or_false] at hops
  rcases hops with rfl | rfl | rfl | rfl | rfl | rfl | rfl | rfl | rfl | rfl | rfl | rfl | rfl | rfl | rfl
  all_goals
    ((repeat (cases hop with
      | head =>
        simp only [StableHlo.nullary_writes, StableHlo.unary_writes, StableHlo.binary_writes, StableHlo.ternary_writes,
          StableHlo.quaternary_writes, StableHlo.TRef.nullary, StableHlo.TRef.unary, StableHlo.TRef.binary,
          StableHlo.TRef.ternary, StableHlo.TRef.quaternary, Finset.mem_singleton]
        exact StableHlo.devRef_ne_of_ne (by rcases hr with rfl | rfl | rfl <;> decide)
      | tail _ hop => ?_)); exact nomatch hop)

/-! ## @main is the region, then those lines -/

/-- Holding the unscoped buffers as launched, @main reduces to the region continued by the lines after it. -/
theorem hmain : Pipeline.HMainK (Ix := Unit) (Name := ℕ) (U := UR sig nD τ) (Lvl := ℕ) cfgs 0 defs₀ Variants.none m (main (F := F))
    (V m) (fun _ => Pipeline.chain ((tailOpss (F := F)).map StableHlo.seq)) :=
  Pipeline.hmain_around cfgs 0 defs₀ Variants.none m main [] tailOpss trivial trivial (fun c => (main_chain c).trans rfl)

/-! ## The windows' arrays and the buffers behind them -/

/-- The pipeline's arrays at contents `G` are the two distinct buffers behind them, whole, at contents `Vx`, when
    `G` is `Vx` at the shared argument for both input windows and at the result for the output window. -/
theorem arrays_iff (c : Dev nD) (G : (w : Fin cfg0.W) → Buf (Elt F) ((cfg0.win w).arr.view.loc (c : Thread nD τ)))
    (Vx : (b : Ref sig .tc) → Buf (Elt F) ((c : Thread nD τ).loc b))
    (h0 : G 0 = Vx main_arg0) (h1 : G 1 = Vx main_arg0) (h2 : G 2 = Vx main_v0) :
    ((dats m 0 c).arrays G : sProp 𝕄) ⊣⊢ Pipeline.arrBufs spec0 c Vx := by
  have himg : Finset.univ.image (Pipeline.arrRef spec0) = insert main_arg0 {main_v0} := by decide
  unfold Dat.arrays Pipeline.arrBufs
  rw [bigSep_W0, himg, bigSep_insert (by decide), bigSep_singleton]
  rw [(arr_whole0 0).set_eq_univ, (arr_whole0 2).set_eq_univ,
    show (dats m 0 c).share 0 = fullShare.left from rfl, show (dats m 0 c).share 1 = fullShare.right from rfl,
    show (dats m 0 c).share 2 = fullShare from rfl, h0, h1, h2]
  change _ ⊣⊢ (iprop((((c : Thread nD τ).loc main_arg0) ↦{fullShare} Vx main_arg0) ∗ (((c : Thread nD τ).loc main_v0) ↦{fullShare} Vx main_v0)) : sProp 𝕄)
  constructor
  · iintro ⟨Ha, Hb, Hc⟩
    isplitl [Ha Hb]
    · iapply (pointsTo_share (PosShare.mem_left_op_right fullShare)).2
      isplitl [Ha] <;> iassumption
    · iexact Hc
  · iintro ⟨Hab, Hc⟩
    ihave H := (pointsTo_share (PosShare.mem_left_op_right fullShare)).1 $$ Hab
    icases H with ⟨Ha, Hb⟩
    isplitl [Ha]; · iexact Ha
    isplitl [Hb]; · iexact Hb
    iexact Hc

/-! ## The buffers at the region's exit and after the lines that follow -/

/-- Core `c`'s unscoped buffers when the region is left: the result at what the region computed, every other buffer
    as launched. -/
def Wx (c : Dev nD) : Valuation τ sig (Elt F) :=
  Function.update (fun b => m (c, b)) (Proc.devRef .tc main_v0) ((dats m 0 c).arrAt 2 cfg0.N)

/-- And when @main returns: the lines after the region have run from there. -/
def Wfin (c : Dev nD) : Valuation τ sig (Elt F) := StableHlo.after (tailOpss (F := F)).flatten (Wx m c)

theorem Wx_v0 (c : Dev nD) : Wx m c (Proc.devRef .tc main_v0) = (dats m 0 c).arrAt 2 cfg0.N := by
  unfold Wx; exact Function.update_self ..

theorem Wx_ne (c : Dev nD) (r : Ref sig .tc) (h : r ≠ main_v0) : Wx m c (Proc.devRef .tc r) = m (c, Proc.devRef .tc r) := by
  unfold Wx; exact Function.update_of_ne (StableHlo.devRef_ne_of_ne h) ..

/-- The lines after the region leave the arguments and the region's result as they found them. -/
theorem Wfin_keep (c : Dev nD) (r : Ref sig .tc) (hr : r = main_arg0 ∨ r = main_arg1 ∨ r = main_v0) :
    Wfin m c (Proc.devRef .tc r) = Wx m c (Proc.devRef .tc r) :=
  StableHlo.after_of_forall_not_mem _ _ fun op hop => by
    obtain ⟨ops, hops, hop⟩ := List.mem_flatten.mp hop
    exact tail_keeps r hr ops hops op hop

/-- All the unscoped buffers held at a valuation `W` that has the shared argument as launched and the result as the
    region computed it are the pipeline's arrays at their final contents and the other buffers at `W`. -/
theorem held_iff (c : Dev nD) (W : Valuation τ sig (Elt F))
    (h0 : W (Proc.devRef .tc main_arg0) = m (c, Proc.devRef .tc main_arg0))
    (h2 : W (Proc.devRef .tc main_v0) = (dats m 0 c).arrAt 2 cfg0.N) :
    (StableHlo.held (c : Thread nD τ) (Pipeline.ucRefs τ sig) W : sProp 𝕄)
      ⊣⊢ iprop((dats m 0 c).arrays ((dats m 0 c).arrAt · cfg0.N) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs 0 winFacts₀0.arr_unscoped c (fun b => W (Proc.devRef .tc b))]
  have ha := arrays_iff m c ((dats m 0 c).arrAt · cfg0.N) (fun b => W (Proc.devRef .tc b))
    (((dats m 0 c).arrAt_in 0 rfl _).trans ((A_eq m c 0).trans h0.symm))
    (((dats m 0 c).arrAt_in 1 rfl _).trans ((A_eq m c 1).trans h0.symm)) h2.symm
  constructor
  · iintro ⟨Ha, Hr⟩
    isplitl [Ha]
    · iapply ha.2; iexact Ha
    · iexact Hr
  · iintro ⟨Ha, Hr⟩
    isplitl [Ha]
    · iapply ha.1; iexact Ha
    · iexact Hr

/-- The other unscoped buffers at the exit valuation are those buffers as launched (the result is no such buffer). -/
theorem rest_Wx (c : Dev nD) :
    (Pipeline.unscopedRest spec0 c (fun b => Wx m c (Proc.devRef .tc b)) : sProp 𝕄) = Pipeline.unscopedRest spec0 c (V m c) := by
  unfold Pipeline.unscopedRest
  refine bigSep_congr fun b hb => ?_
  dsimp only
  rw [Wx_ne m c b fun e => (Finset.mem_sdiff.mp hb).2 (Finset.mem_image.mpr ⟨2, Finset.mem_univ _, e ▸ rfl⟩)]

/-- THE LINES AFTER THE REGION: from the region's exit — the arrays at their final contents, the other buffers as
    launched — they run holding every unscoped buffer (the two halves of the shared argument joined for the while),
    and hand back the arrays unchanged and the other buffers at `Wfin`. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ
          (Pipeline.chain ((tailOpss (F := F)).map StableHlo.seq)) Q' := by
  have hx := held_iff m c (Wx m c) (Wx_ne m c main_arg0 (by decide)) (Wx_v0 m c)
  have hf := held_iff m c (Wfin m c)
    ((Wfin_keep m c main_arg0 (Or.inl rfl)).trans (Wx_ne m c main_arg0 (by decide)))
    ((Wfin_keep m c main_v0 (Or.inr (Or.inr rfl))).trans (Wx_v0 m c))
  rw [rest_Wx] at hx
  rw [← List.append_nil ((tailOpss (F := F)).map StableHlo.seq)]
  iintro ⟨Hk, Hb, Ha, Hz⟩
  ihave Hh := hx.2 $$ [Ha Hz]
  · isplitl [Ha] <;> iassumption
  iapply (Pipeline.wp_seqs_then (pcfgs (F := F)) defs₀ Variants.none c (Pipeline.ucRefs τ sig) [] tailOpss tail_sub tail_fresh (Wx m c)) $$ [Hb Hh]
  · isplitl [Hb] <;> iassumption
  iintro Hb
  rw [Pipeline.chain_nil, wp_pure]
  imodintro
  iapply Hk
  icases Hb with ⟨-, H⟩
  iapply hf.1
  iexact H

/-! ## The run -/

variable (ρ : Dev nD → PrngReg)

/-- The program's result and its second argument are unscoped buffers that are no window's array. -/
theorem rest_mem_v118 : main_v118 ∈ (Finset.univ.filter fun b : Ref sig .tc => ¬ b.isScoped) \ Finset.univ.image (Pipeline.arrRef spec0) := by
  decide
theorem rest_mem_arg1 : main_arg1 ∈ (Finset.univ.filter fun b : Ref sig .tc => ¬ b.isScoped) \ Finset.univ.image (Pipeline.arrRef spec0) := by
  decide

/-- ENTRY: the two buffers behind the arrays, as launched, are the pipeline's arrays at their entry contents. -/
theorem hsplit (c : Dev nD) :
    (Pipeline.arrBufs spec0 c (V m c) : sProp 𝕄) ⊢ (dats m 0 c).arrays ((dats m 0 c).arrAt · 0) :=
  (arrays_iff m c ((dats m 0 c).arrAt · 0) (V m c) rfl rfl rfl).2

/-- THE END: the other buffers at `Wfin`, held beside the state interpretation of a final state, say what that
    state's memory holds at the program's result and at the second argument. -/
theorem hfinal (c : Dev nD) (s' : Phys nD τ sig (Elt F)) :
    iprop((iprop(emp) : sProp 𝕄) ∗ Pipeline.unscopedRest spec0 c (fun b => Wfin m c (Proc.devRef .tc b)) ∗ SI s')
      ⊢ |={Set.univ}=> iprop(⌜s'.mem.mem ((c : Thread nD τ).loc main_v118) = Wfin m c (Proc.devRef .tc main_v118)
          ∧ s'.mem.mem ((c : Thread nD τ).loc main_arg1) = m ((c : Thread nD τ).loc main_arg1)⌝ ∗ SI s') := by
  unfold Pipeline.unscopedRest
  iintro ⟨-, Hz, HSI⟩
  ihave Hr := (pointsTo_read_all _ (fun b : Ref sig .tc => (c : Thread nD τ).loc b)
    (fun b => Wfin m c (Proc.devRef .tc b)) s') $$ [Hz HSI]
  · isplitl [Hz] <;> iassumption
  icases Hr with ⟨%hr, HSI⟩
  imodintro
  isplitr
  · ipureintro
    exact ⟨hr main_v118 rest_mem_v118, (hr main_arg1 rest_mem_arg1).trans
      ((Wfin_keep m c main_arg1 (Or.inr (Or.inl rfl))).trans (Wx_ne m c main_arg1 (by decide)))⟩
  · iexact HSI

/-- Of three resources the last, the first two let go; and a resource beside nothing. -/
theorem sep_third (A B C : sProp 𝕄) : iprop(A ∗ B ∗ C) ⊢ C := by
  iintro ⟨-, -, H⟩
  iexact H
theorem emp_beside (C : sProp 𝕄) : C ⊢ iprop(emp ∗ C) := by
  iintro H
  isplitr
  · iempintro
  · iexact H

/-- No table is prefetched: the admissible contents are the empty ones. -/
abbrev adm : (p : Fin 1) → (pcfgs (F := F) p).Adm := fun p => (cfgs p).toPCfg_adm

-- the launch theorem's implicit arguments are found by unifying its conclusion with this one, which takes unfolding
-- plain definitions in a metavariable's type
set_option backward.isDefEq.respectTransparency.types false in
set_option maxRecDepth 200000 in
set_option maxHeartbeats 8000000 in
/-- At the compiled mesh, at any float instance, from any memory with zero counters: every weakly fair execution of
    @main on the TensorCores terminates, nothing faulting, and every final state has each of the pipeline's arrays at
    what the proof data compute, the program's result at `Wfin`, and the second argument as launched. -/
theorem run_main : θ_run (defs (F := F)) (onTc (τ := τ) (main (F := F))) ⟨m, fun _ => 0, ρ⟩ (fun r => ∀ c : Dev nD,
    (∀ w, r.2.mem ((cfg0.win w).arr.view.loc (c : Thread nD τ)) = (dats m 0 c).arrAt w cfg0.N)
    ∧ r.2.mem ((c : Thread nD τ).loc main_v118) = Wfin m c (Proc.devRef .tc main_v118)
    ∧ r.2.mem ((c : Thread nD τ).loc main_arg1) = m ((c : Thread nD τ).loc main_arg1)) :=
  Pipeline.θ_run_region_noSem_pf_tail (pcfgs (F := F)) adm (dats m) () cellOf_inj 0 winFacts₀0
    (Pipeline.PreFacts.none _) emb₁ defs₀ Variants.none m ρ main (fun _ => Pipeline.chain ((tailOpss (F := F)).map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m)
    (hsplit := hsplit m)
    (hpf := fun _ k => k.elim0)
    (X := fun _ => iprop(emp)) (Y := fun _ => iprop(emp))
    (Z := fun c => Pipeline.unscopedRest spec0 c (V m c))
    (Z' := fun c => Pipeline.unscopedRest spec0 c (fun b => Wfin m c (Proc.devRef .tc b)))
    (hX := fun c => by
      rw [Pipeline.unscopedRestP_none]
      iintro H
      isplitr
      · iempintro
      · iexact H)
    (hin := fun c => sep_third _ _ _)
    (hout := fun c => emp_beside _)
    (htail := htail m)
    (QY := fun c s => s.mem ((c : Thread nD τ).loc main_v118) = Wfin m c (Proc.devRef .tc main_v118)
        ∧ s.mem ((c : Thread nD τ).loc main_arg1) = m ((c : Thread nD τ).loc main_arg1))
    (hY := hfinal m)
    (hQ := fun s h c => ⟨(h c).1, (h c).2.2⟩)

/-- The frame: both argument arrays end as launched — the first as the pipeline's account of an input window says,
    the second because no line writes it. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono
    (fun _ h c => ⟨((h c).1 0).trans (((dats m 0 c).arrAt_in 0 rfl _).trans (A_eq m c 0)), (h c).2.2⟩) (run_main m ρ)

end Cert.Kernel.Hand

end
-- ==== Proof.KBody.lean ====
/-
  The kernel body's run, at any float instance.

  The body loads its two input blocks whole (512 rows of 2048 columns each), computes one 512 × 512 block of the
  distance matrix from them, loads the output block (the value is not used) and stores the computed block over the
  whole output buffer. So, handed the two input buffers at contents x0 and x1 and the output buffer at anything, it
  ends with the inputs as they were and the output at the payload of (x0, x1): the one store covers the buffer.
-/
import proofs.«117172_j65712999629574_1_alg».proof.Proof.Gen.KernelIdeal.Launch
import proofs.«117172_j65712999629574_1_alg».proof.Proof.Gen.KernelIdeal.Skeleton
import proofs.«117172_j65712999629574_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block and the whole output block, as the rectangles the body's accesses name. -/
abbrev rIn : Rect S512x2048 := Rect.unit (s := S512x2048) ![0, 0] S512x2048.size inb_S512x2048_S512x2048_0_0
abbrev rOut : Rect S512x512 := Rect.unit (s := S512x512) ![0, 0] S512x512.size inb_S512x512_S512x512_0_0

/-- What the body leaves in the output buffer, from the two input buffers' contents: its one store, of the payload
    of the two loaded blocks, over the whole buffer. -/
def outBlock (x0 : Vec F S512x2048 .f32) (x1 : Vec F S512x2048 .f32) : Vec F S512x512 .f32 :=
  View.canon [⟨rOut, k0_pay1 (View.ld x0 rIn) (View.ld x1 rIn)⟩]

/-- The store's rectangle is the whole buffer, so it covers it. -/
theorem outCover (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs at x0, x1 and the output at anything run to the continuation holding the
    inputs unchanged and the output at `outBlock x0 x1`. -/
theorem sound_kernel (c : Dev nD) (E : Set ℕ) (i : grid0.Coords)
    (arg2 : Memref sig .tc .vmem S512x2048 .f32) (harg2 : arg2.IsWhole)
    (arg3 : Memref sig .tc .vmem S512x2048 .f32) (harg3 : arg3.IsWhole)
    (arg4 : Memref sig .tc .vmem S512x512 .f32) (harg4 : arg4.IsWhole)
    (x0 : Vec F S512x2048 .f32) (x1 : Vec F S512x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__pairwise_dist_kernel i arg2 harg2 arg3 harg3 arg4 harg4) K := by
  simp only [cc0__pairwise_dist_kernel_eq_skeleton]; unfold cc0__pairwise_dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Hand

end
-- ==== Proof.KDat.lean ====
/-
  The pipeline's proof data on a core, and the body obligation at every grid point.

  The grid has 8 × 8 points. At point (i, j) the first input window holds rows 512·i … 512·i+511 of the argument
  matrix, the second rows 512·j … 512·j+511 of the SAME matrix, and the output window is block (i, j) of the result.
  Both input windows read one array, so each holds it at half the full share; the output array is held whole.
  After the body the input buffers hold their blocks still, and the output buffer the block computed from them.
-/
import proofs.«117172_j65712999629574_1_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The invariant between the points: the scoped buffers no window stages (there are none), untouched. -/
abbrev Inv (c : Dev nD) : sProp 𝕄 :=
  Pipeline.scopedRest (Ix := Unit) (Name := ℕ) (U := UR sig nD τ) (Lvl := ℕ) (Val := Elt F) spec0 c

/-- The proof data: the arrays as the region finds them; after the body each input buffer at its block, the output
    buffer at the block computed from the two; the two input windows at the two halves of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Inv c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

/-- An input window's current buffer holds its block at every point, fetched there or not: where the first window is
    not fetched (the column coordinate moved, the row coordinate did not) its index has not moved either. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
/-
  The windows' arrays as separate buffers, and @main's lines after the region.

  The two input windows read ONE array, each at half the full share; the output window's array is held whole. So
  "the pipeline's arrays at contents F" and "the two distinct buffers behind them, whole, at contents Vx" are the
  same thing exactly when F agrees with Vx at the shared argument for both input windows and at the result for the
  output window: the full share of the argument splits into its two halves and the halves join again.
  After the region @main runs 147 host operations in 15 stretches; none of them writes an argument or the
  region's result, and each touches unscoped TensorCore buffers only.
-/
import proofs.«117172_j65712999629574_1_alg».proof.Proof.KDat
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The lines after the region -/

/-- @main's host operations after the region, stretch by stretch. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14]

/-- Each touches unscoped TensorCore buffers only. -/
theorem tail_sub : ∀ ops ∈ (tailOpss : List (List (HloOp τ sig (Elt F)))), ∀ op ∈ ops, op.bufs ⊆ Pipeline.ucRefs τ sig := by
  intro ops hops op hop
  simp only [tailOpss, List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- None allocates a buffer. -/
theorem tail_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl | rfl | rfl | rfl | rfl | rfl | rfl | rfl | rfl | rfl | rfl
  all_goals ((repeat (cases hop with | head => rfl | tail _ hop => ?_)); exact nomatch hop)

/-- None writes an argument array or the region's result: each writes its own result buffer, which is none of them. -/
theorem tail_keeps (r : Ref sig .tc) (hr : r = main_arg0 ∨ r = main_arg1 ∨ r = main_v0) :
    ∀ ops ∈ (tailOpss : List (List (HloOp τ sig (Elt F)))), ∀ op ∈ ops, Proc.devRef .tc r ∉ op.writes := by
  intro ops hops op hop
  simp only [tailOpss, List.mem_cons, List.mem_nil_iff, or_false] at hops
  rcases hops with rfl | rfl | rfl | rfl | rfl | rfl | rfl | rfl | rfl | rfl | rfl | rfl | rfl | rfl | rfl
  all_goals
    ((repeat (cases hop with
      | head =>
        simp only [StableHlo.nullary_writes, StableHlo.unary_writes, StableHlo.binary_writes, StableHlo.ternary_writes,
          StableHlo.quaternary_writes, StableHlo.TRef.nullary, StableHlo.TRef.unary, StableHlo.TRef.binary,
          StableHlo.TRef.ternary, StableHlo.TRef.quaternary, Finset.mem_singleton]
        exact StableHlo.devRef_ne_of_ne (by rcases hr with rfl | rfl | rfl <;> decide)
      | tail _ hop => ?_)); exact nomatch hop)

/-! ## @main is the region, then those lines -/

/-- Holding the unscoped buffers as launched, @main reduces to the region continued by the lines after it. -/
theorem hmain : Pipeline.HMainK (Ix := Unit) (Name := ℕ) (U := UR sig nD τ) (Lvl := ℕ) cfgs 0 defs₀ Variants.none m (main (F := F))
    (V m) (fun _ => Pipeline.chain ((tailOpss (F := F)).map StableHlo.seq)) :=
  Pipeline.hmain_around cfgs 0 defs₀ Variants.none m main [] tailOpss trivial trivial (fun c => (main_chain c).trans rfl)

/-! ## The windows' arrays and the buffers behind them -/

/-- The pipeline's arrays at contents `G` are the two distinct buffers behind them, whole, at contents `Vx`, when
    `G` is `Vx` at the shared argument for both input windows and at the result for the output window. -/
theorem arrays_iff (c : Dev nD) (G : (w : Fin cfg0.W) → Buf (Elt F) ((cfg0.win w).arr.view.loc (c : Thread nD τ)))
    (Vx : (b : Ref sig .tc) → Buf (Elt F) ((c : Thread nD τ).loc b))
    (h0 : G 0 = Vx main_arg0) (h1 : G 1 = Vx main_arg0) (h2 : G 2 = Vx main_v0) :
    ((dats m 0 c).arrays G : sProp 𝕄) ⊣⊢ Pipeline.arrBufs spec0 c Vx := by
  have himg : Finset.univ.image (Pipeline.arrRef spec0) = insert main_arg0 {main_v0} := by decide
  unfold Dat.arrays Pipeline.arrBufs
  rw [bigSep_W0, himg, bigSep_insert (by decide), bigSep_singleton]
  rw [(arr_whole0 0).set_eq_univ, (arr_whole0 2).set_eq_univ,
    show (dats m 0 c).share 0 = fullShare.left from rfl, show (dats m 0 c).share 1 = fullShare.right from rfl,
    show (dats m 0 c).share 2 = fullShare from rfl, h0, h1, h2]
  change _ ⊣⊢ (iprop((((c : Thread nD τ).loc main_arg0) ↦{fullShare} Vx main_arg0) ∗ (((c : Thread nD τ).loc main_v0) ↦{fullShare} Vx main_v0)) : sProp 𝕄)
  constructor
  · iintro ⟨Ha, Hb, Hc⟩
    isplitl [Ha Hb]
    · iapply (pointsTo_share (PosShare.mem_left_op_right fullShare)).2
      isplitl [Ha] <;> iassumption
    · iexact Hc
  · iintro ⟨Hab, Hc⟩
    ihave H := (pointsTo_share (PosShare.mem_left_op_right fullShare)).1 $$ Hab
    icases H with ⟨Ha, Hb⟩
    isplitl [Ha]; · iexact Ha
    isplitl [Hb]; · iexact Hb
    iexact Hc

/-! ## The buffers at the region's exit and after the lines that follow -/

/-- Core `c`'s unscoped buffers when the region is left: the result at what the region computed, every other buffer
    as launched. -/
def Wx (c : Dev nD) : Valuation τ sig (Elt F) :=
  Function.update (fun b => m (c, b)) (Proc.devRef .tc main_v0) ((dats m 0 c).arrAt 2 cfg0.N)

/-- And when @main returns: the lines after the region have run from there. -/
def Wfin (c : Dev nD) : Valuation τ sig (Elt F) := StableHlo.after (tailOpss (F := F)).flatten (Wx m c)

theorem Wx_v0 (c : Dev nD) : Wx m c (Proc.devRef .tc main_v0) = (dats m 0 c).arrAt 2 cfg0.N := by
  unfold Wx; exact Function.update_self ..

theorem Wx_ne (c : Dev nD) (r : Ref sig .tc) (h : r ≠ main_v0) : Wx m c (Proc.devRef .tc r) = m (c, Proc.devRef .tc r) := by
  unfold Wx; exact Function.update_of_ne (StableHlo.devRef_ne_of_ne h) ..

/-- The lines after the region leave the arguments and the region's result as they found them. -/
theorem Wfin_keep (c : Dev nD) (r : Ref sig .tc) (hr : r = main_arg0 ∨ r = main_arg1 ∨ r = main_v0) :
    Wfin m c (Proc.devRef .tc r) = Wx m c (Proc.devRef .tc r) :=
  StableHlo.after_of_forall_not_mem _ _ fun op hop => by
    obtain ⟨ops, hops, hop⟩ := List.mem_flatten.mp hop
    exact tail_keeps r hr ops hops op hop

/-- All the unscoped buffers held at a valuation `W` that has the shared argument as launched and the result as the
    region computed it are the pipeline's arrays at their final contents and the other buffers at `W`. -/
theorem held_iff (c : Dev nD) (W : Valuation τ sig (Elt F))
    (h0 : W (Proc.devRef .tc main_arg0) = m (c, Proc.devRef .tc main_arg0))
    (h2 : W (Proc.devRef .tc main_v0) = (dats m 0 c).arrAt 2 cfg0.N) :
    (StableHlo.held (c : Thread nD τ) (Pipeline.ucRefs τ sig) W : sProp 𝕄)
      ⊣⊢ iprop((dats m 0 c).arrays ((dats m 0 c).arrAt · cfg0.N) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs 0 winFacts₀0.arr_unscoped c (fun b => W (Proc.devRef .tc b))]
  have ha := arrays_iff m c ((dats m 0 c).arrAt · cfg0.N) (fun b => W (Proc.devRef .tc b))
    (((dats m 0 c).arrAt_in 0 rfl _).trans ((A_eq m c 0).trans h0.symm))
    (((dats m 0 c).arrAt_in 1 rfl _).trans ((A_eq m c 1).trans h0.symm)) h2.symm
  constructor
  · iintro ⟨Ha, Hr⟩
    isplitl [Ha]
    · iapply ha.2; iexact Ha
    · iexact Hr
  · iintro ⟨Ha, Hr⟩
    isplitl [Ha]
    · iapply ha.1; iexact Ha
    · iexact Hr

/-- The other unscoped buffers at the exit valuation are those buffers as launched (the result is no such buffer). -/
theorem rest_Wx (c : Dev nD) :
    (Pipeline.unscopedRest spec0 c (fun b => Wx m c (Proc.devRef .tc b)) : sProp 𝕄) = Pipeline.unscopedRest spec0 c (V m c) := by
  unfold Pipeline.unscopedRest
  refine bigSep_congr fun b hb => ?_
  dsimp only
  rw [Wx_ne m c b fun e => (Finset.mem_sdiff.mp hb).2 (Finset.mem_image.mpr ⟨2, Finset.mem_univ _, e ▸ rfl⟩)]

/-- THE LINES AFTER THE REGION: from the region's exit — the arrays at their final contents, the other buffers as
    launched — they run holding every unscoped buffer (the two halves of the shared argument joined for the while),
    and hand back the arrays unchanged and the other buffers at `Wfin`. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ
          (Pipeline.chain ((tailOpss (F := F)).map StableHlo.seq)) Q' := by
  have hx := held_iff m c (Wx m c) (Wx_ne m c main_arg0 (by decide)) (Wx_v0 m c)
  have hf := held_iff m c (Wfin m c)
    ((Wfin_keep m c main_arg0 (Or.inl rfl)).trans (Wx_ne m c main_arg0 (by decide)))
    ((Wfin_keep m c main_v0 (Or.inr (Or.inr rfl))).trans (Wx_v0 m c))
  rw [rest_Wx] at hx
  rw [← List.append_nil ((tailOpss (F := F)).map StableHlo.seq)]
  iintro ⟨Hk, Hb, Ha, Hz⟩
  ihave Hh := hx.2 $$ [Ha Hz]
  · isplitl [Ha] <;> iassumption
  iapply (Pipeline.wp_seqs_then (pcfgs (F := F)) defs₀ Variants.none c (Pipeline.ucRefs τ sig) [] tailOpss tail_sub tail_fresh (Wx m c)) $$ [Hb Hh]
  · isplitl [Hb] <;> iassumption
  iintro Hb
  rw [Pipeline.chain_nil, wp_pure]
  imodintro
  iapply Hk
  icases Hb with ⟨-, H⟩
  iapply hf.1
  iexact H

/-! ## The run -/

variable (ρ : Dev nD → PrngReg)

/-- The program's result and its second argument are unscoped buffers that are no window's array. -/
theorem rest_mem_v118 : main_v118 ∈ (Finset.univ.filter fun b : Ref sig .tc => ¬ b.isScoped) \ Finset.univ.image (Pipeline.arrRef spec0) := by
  decide
theorem rest_mem_arg1 : main_arg1 ∈ (Finset.univ.filter fun b : Ref sig .tc => ¬ b.isScoped) \ Finset.univ.image (Pipeline.arrRef spec0) := by
  decide

/-- ENTRY: the two buffers behind the arrays, as launched, are the pipeline's arrays at their entry contents. -/
theorem hsplit (c : Dev nD) :
    (Pipeline.arrBufs spec0 c (V m c) : sProp 𝕄) ⊢ (dats m 0 c).arrays ((dats m 0 c).arrAt · 0) :=
  (arrays_iff m c ((dats m 0 c).arrAt · 0) (V m c) rfl rfl rfl).2

/-- THE END: the other buffers at `Wfin`, held beside the state interpretation of a final state, say what that
    state's memory holds at the program's result and at the second argument. -/
theorem hfinal (c : Dev nD) (s' : Phys nD τ sig (Elt F)) :
    iprop((iprop(emp) : sProp 𝕄) ∗ Pipeline.unscopedRest spec0 c (fun b => Wfin m c (Proc.devRef .tc b)) ∗ SI s')
      ⊢ |={Set.univ}=> iprop(⌜s'.mem.mem ((c : Thread nD τ).loc main_v118) = Wfin m c (Proc.devRef .tc main_v118)
          ∧ s'.mem.mem ((c : Thread nD τ).loc main_arg1) = m ((c : Thread nD τ).loc main_arg1)⌝ ∗ SI s') := by
  unfold Pipeline.unscopedRest
  iintro ⟨-, Hz, HSI⟩
  ihave Hr := (pointsTo_read_all _ (fun b : Ref sig .tc => (c : Thread nD τ).loc b)
    (fun b => Wfin m c (Proc.devRef .tc b)) s') $$ [Hz HSI]
  · isplitl [Hz] <;> iassumption
  icases Hr with ⟨%hr, HSI⟩
  imodintro
  isplitr
  · ipureintro
    exact ⟨hr main_v118 rest_mem_v118, (hr main_arg1 rest_mem_arg1).trans
      ((Wfin_keep m c main_arg1 (Or.inr (Or.inl rfl))).trans (Wx_ne m c main_arg1 (by decide)))⟩
  · iexact HSI

/-- Of three resources the last, the first two let go; and a resource beside nothing. -/
theorem sep_third (A B C : sProp 𝕄) : iprop(A ∗ B ∗ C) ⊢ C := by
  iintro ⟨-, -, H⟩
  iexact H
theorem emp_beside (C : sProp 𝕄) : C ⊢ iprop(emp ∗ C) := by
  iintro H
  isplitr
  · iempintro
  · iexact H

/-- No table is prefetched: the admissible contents are the empty ones. -/
abbrev adm : (p : Fin 1) → (pcfgs (F := F) p).Adm := fun p => (cfgs p).toPCfg_adm

-- the launch theorem's implicit arguments are found by unifying its conclusion with this one, which takes unfolding
-- plain definitions in a metavariable's type
set_option backward.isDefEq.respectTransparency.types false in
set_option maxRecDepth 200000 in
set_option maxHeartbeats 8000000 in
/-- At the compiled mesh, at any float instance, from any memory with zero counters: every weakly fair execution of
    @main on the TensorCores terminates, nothing faulting, and every final state has each of the pipeline's arrays at
    what the proof data compute, the program's result at `Wfin`, and the second argument as launched. -/
theorem run_main : θ_run (defs (F := F)) (onTc (τ := τ) (main (F := F))) ⟨m, fun _ => 0, ρ⟩ (fun r => ∀ c : Dev nD,
    (∀ w, r.2.mem ((cfg0.win w).arr.view.loc (c : Thread nD τ)) = (dats m 0 c).arrAt w cfg0.N)
    ∧ r.2.mem ((c : Thread nD τ).loc main_v118) = Wfin m c (Proc.devRef .tc main_v118)
    ∧ r.2.mem ((c : Thread nD τ).loc main_arg1) = m ((c : Thread nD τ).loc main_arg1)) :=
  Pipeline.θ_run_region_noSem_pf_tail (pcfgs (F := F)) adm (dats m) () cellOf_inj 0 winFacts₀0
    (Pipeline.PreFacts.none _) emb₁ defs₀ Variants.none m ρ main (fun _ => Pipeline.chain ((tailOpss (F := F)).map StableHlo.seq))
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m)
    (hsplit := hsplit m)
    (hpf := fun _ k => k.elim0)
    (X := fun _ => iprop(emp)) (Y := fun _ => iprop(emp))
    (Z := fun c => Pipeline.unscopedRest spec0 c (V m c))
    (Z' := fun c => Pipeline.unscopedRest spec0 c (fun b => Wfin m c (Proc.devRef .tc b)))
    (hX := fun c => by
      rw [Pipeline.unscopedRestP_none]
      iintro H
      isplitr
      · iempintro
      · iexact H)
    (hin := fun c => sep_third _ _ _)
    (hout := fun c => emp_beside _)
    (htail := htail m)
    (QY := fun c s => s.mem ((c : Thread nD τ).loc main_v118) = Wfin m c (Proc.devRef .tc main_v118)
        ∧ s.mem ((c : Thread nD τ).loc main_arg1) = m ((c : Thread nD τ).loc main_arg1))
    (hY := hfinal m)
    (hQ := fun s h c => ⟨(h c).1, (h c).2.2⟩)

/-- The frame: both argument arrays end as launched — the first as the pipeline's account of an input window says,
    the second because no line writes it. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono
    (fun _ h c => ⟨((h c).1 0).trans (((dats m 0 c).arrAt_in 0 rfl _).trans (A_eq m c 0)), (h c).2.2⟩) (run_main m ρ)

end Cert.KernelIdeal.Hand

end
-- ==== Proof.DistSpec.lean ====
/-
  The pairwise distance matrix of the rows of a matrix, as one function of the matrix, over the extended reals.

  For x of shape [4096, 2048] and rows i, j:
      dist x (i, j) = sqrt (max ε ((‖x_i‖² + ‖x_j‖²) − 2 · ⟨x_i, x_j⟩))
  with ‖x_i‖² = Σ_k x(i,k)·x(i,k), ⟨x_i, x_j⟩ = Σ_k x(i,k)·x(j,k), the sums over the 2048 columns, ε and 2 the
  values of the two binary32 words both programs carry (never evaluated: the same word stands on both sides).
  The grouping is the one both programs use: the two squared norms are added first, then twice the inner
  product is subtracted, then the clamp from below, then the square root. No law of the extended reals is used
  beyond those of a commutative monoid under the finite sums, so nothing here needs the entries to be finite.
-/
import Idealize.ShloMosaic.PureOps.Ideal
import Idealize.ShloMosaic.Lib.ValueIdx

noncomputable section

open scoped BigOperators

namespace Cert.PairDist

open Idealize.ShloMosaic Idealize.ShloMosaic.ValueIdx

/-- The matrix of 4096 rows and 2048 columns, and the square matrix of distances. -/
abbrev SX : Shape := ⟨2, ![4096, 2048]⟩
abbrev SD : Shape := ⟨2, ![4096, 4096]⟩

/-- The clamp ε (the binary32 word of 1e-12) and the factor 2, as the extended reals their words denote. -/
def eps : EReal := Ideal.ofBits .f32 0x2B8CBCCC#32
def two : EReal := Ideal.ofBits .f32 0x40000000#32

/-- The squared norm of row `i`: the sum over the columns of the squares. -/
def sqn (x : SX.Idx → EReal) (i : Fin 4096) : EReal := ∑ k : Fin 2048, x (ix2 i k) * x (ix2 i k)

/-- The inner product of rows `i` and `j`. -/
def dot (x : SX.Idx → EReal) (i j : Fin 4096) : EReal := ∑ k : Fin 2048, x (ix2 i k) * x (ix2 j k)

/-- The distance of rows `i` and `j`. -/
def distAt (x : SX.Idx → EReal) (i j : Fin 4096) : EReal :=
  Ideal.sqrt (max eps ((sqn x i + sqn x j) - two * dot x i j))

/-- The matrix of all distances, index by index. -/
def dist (x : SX.Idx → EReal) : SD.Idx → EReal := fun idx => distAt x (idx 0) (idx 1)

theorem dist_ix2 (x : SX.Idx → EReal) (i j : Fin 4096) : dist x (ix2 i j) = distAt x i j := rfl

end Cert.PairDist

end
-- ==== Proof.LibKeepdimsLayout.lean ====
/-
  Layout operations on a column that keeps its reduced axis as a unit axis, read at an index given by coordinates,
  for any extents: a vector of length a viewed as an a × 1 column, and an a × 1 column repeated over b columns.
  (The transpose of an a × 1 column to a 1 × a row and a 1 × b row repeated over a rows are the library's
  `transpose_ix2_apply` and `broadcastTo_1b_ab_apply`.)
-/
import Idealize.ShloMosaic.Lib.ValueIdx
import Idealize.ShloMosaic.Lib.ValueLayout
import Idealize.ShloMosaic.Lib.Pipeline.Value

namespace Cert.KeepdimsLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsLayout
-- ==== Proof.KPayload.lean ====
/-
  The value of the block the kernel's body stores, at the ideal values, entry by entry.

  For two loaded blocks x0, x1 of 512 rows and 2048 columns, the stored 512 × 512 block at (p, q) is
      sqrt (max ε ((Σ_k x0(p,k)² + Σ_k x1(q,k)²) − 2 · Σ_k x0(p,k) · x1(q,k))),
  the sums over the 2048 columns. The squared norms are lane sums kept as columns: the first is repeated over the
  columns of the block, the second is transposed to a row and repeated over the rows. The inner products are one
  matrix product contracting the columns of both blocks, into a zero accumulator; the change of format before it is
  the identity on extended reals.
-/
import proofs.«117172_j65712999629574_1_alg».proof.Proof.Gen.KernelIdeal.Skeleton
import proofs.«117172_j65712999629574_1_alg».proof.Proof.DistSpec
import proofs.«117172_j65712999629574_1_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Idealize.ShloMosaic Idealize.ShloMosaic.ValueIdx Cert.KernelIdeal Cert.KeepdimsLayout

/-- The sum over the columns of a 512 × 2048 block, read at row `p`. -/
theorem laneSum_apply (v : FVec Ideal S512x2048 .f32) (h : S512x2048.Reduces [1] S512) (hφ : FKind.Formats .f32)
    (hacc : (0x00000000#32 : BitVec 32) = 0x00000000#32) (p : Fin 512) :
    multiReduction (F := Ideal) .add [1] S512 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v ?_
  funext c
  apply Fin.ext
  match c with
  | ⟨0, _⟩ => rfl
  | ⟨1, _⟩ => rfl

/-- A vector of 512 entries kept as a column and repeated over 512 columns reads, at `(p, q)`, its entry `p`. -/
theorem col_apply (w : FVec Ideal S512 .f32) (hc : S512.ShapeCasts S512x1) (hb : S512x1.Broadcasts S512x512)
    (p q : Fin 512) : broadcastTo S512x512 (shapeCast S512x1 w hc) hb (ix2 p q) = w (ix1 p) :=
  (broadcastTo_a1_ab_apply _ hb p q).trans (shapeCast_a_a1_apply w hc p 0)

/-- The same column transposed to a row and repeated over 512 rows reads, at `(p, q)`, its entry `q`. -/
theorem row_apply (w : FVec Ideal S512 .f32) (hc : S512.ShapeCasts S512x1) (ht : S512x1.Transposes [1, 0] S1x512)
    (hb : S1x512.Broadcasts S512x512) (p q : Fin 512) :
    broadcastTo S512x512 (transpose S1x512 [1, 0] (shapeCast S512x1 w hc) ht) hb (ix2 p q) = w (ix1 q) :=
  (broadcastTo_1b_ab_apply _ hb p q).trans
    ((transpose_ix2_apply _ ht (0 : Fin 1) q).trans (shapeCast_a_a1_apply w hc q 0))

/-- The product of two 512 × 2048 blocks contracting the columns of both, into the zero block, read at `(p, q)`: the
    sum over the columns of the products of row `p` of the first and row `q` of the second. -/
theorem gram_apply [Facts₀] {φ₁ φ₂ : FTy} (a : FVec Ideal S512x2048 φ₁) (b : FVec Ideal S512x2048 φ₂) (p q : Fin 512) :
    matmul dot_S512x2048_S512x2048_S512x512_1_1_0_0_n_n none a b (constant (F := Ideal) S512x512 .f32 0x00000000#32) (ix2 p q)
      = ∑ k : Fin 2048, a (ix2 p k) * b (ix2 q k) := by
  show FloatOps.matmul _ none a b _ (ix2 p q) = _
  rw [Ideal.matmul_constant_zero_apply,
    ← Equiv.sum_comp (contrEquiv1 dot_S512x2048_S512x2048_S512x512_1_1_0_0_n_n 2048 rfl rfl).symm]
  refine Finset.sum_congr rfl fun c _ => ?_
  have c2 := contrEquiv1_symm_val dot_S512x2048_S512x2048_S512x512_1_1_0_0_n_n 2048 rfl rfl c
  have l2 : dot_S512x2048_S512x2048_S512x512_1_1_0_0_n_n.lhsIdx (ix2 p q) ((contrEquiv1 _ 2048 rfl rfl).symm c) = ix2 p c := by
    funext ax; apply Fin.ext
    match ax with
    | ⟨0, _⟩ => simp [DotDims.lhsIdx, dot_S512x2048_S512x2048_S512x512_1_1_0_0_n_n]; rfl
    | ⟨1, _⟩ => simp [DotDims.lhsIdx, dot_S512x2048_S512x2048_S512x512_1_1_0_0_n_n]; exact c2
  have r2 : dot_S512x2048_S512x2048_S512x512_1_1_0_0_n_n.rhsIdx (ix2 p q) ((contrEquiv1 _ 2048 rfl rfl).symm c) = ix2 q c := by
    funext ax; apply Fin.ext
    match ax with
    | ⟨0, _⟩ => simp [DotDims.rhsIdx, dot_S512x2048_S512x2048_S512x512_1_1_0_0_n_n]; rfl
    | ⟨1, _⟩ => simp [DotDims.rhsIdx, dot_S512x2048_S512x2048_S512x512_1_1_0_0_n_n]; exact c2
  rw [l2, r2]

/-- THE STORED BLOCK AT `(p, q)`: the distance of row `p` of the first loaded block and row `q` of the second. -/
theorem pay_apply [Facts] (x0 x1 : Vec Ideal S512x2048 .f32) (p q : Fin 512) :
    Gen.k0_pay1 (F := Ideal) x0 x1 (ix2 p q)
      = Ideal.sqrt (max Cert.PairDist.eps
          (((∑ k : Fin 2048, x0 (ix2 p k) * x0 (ix2 p k)) + (∑ k : Fin 2048, x1 (ix2 q k) * x1 (ix2 q k)))
            - Cert.PairDist.two * ∑ k : Fin 2048, x0 (ix2 p k) * x1 (ix2 q k))) := by
  unfold Gen.k0_pay1 Cert.PairDist.eps Cert.PairDist.two
  show Ideal.sqrt (max (Ideal.ofBits .f32 0x2B8CBCCC#32) ((_ + _) - Ideal.ofBits .f32 0x40000000#32 * _)) = _
  refine congrArg Ideal.sqrt (congrArg (max _) ?_)
  refine congrArg₂ (· - ·) (congrArg₂ (· + ·) ?_ ?_) (congrArg (_ * ·) ?_)
  · exact (col_apply _ _ _ p q).trans (laneSum_apply _ _ _ _ p)
  · exact (row_apply _ _ _ _ p q).trans (laneSum_apply _ _ _ _ q)
  · exact gram_apply _ _ p q

end Cert.KernelIdeal.KValue

end
-- ==== Proof.KFinal.lean ====
/-
  The result array after the grid's 64 points, as one function of the argument matrix.

  The grid is 8 × 8. Point (bi, bj) reads rows 512·bi … 512·bi+511 of the argument as its first block and rows
  512·bj … 512·bj+511 of the same argument as its second, and writes block (bi, bj) of the 4096 × 4096 result. Entry
  (p, q) of that block is the distance of rows 512·bi+p and 512·bj+q, so the block is the restriction of the distance
  matrix; the 64 blocks cover the result (entry (r, s) lies in block (r / 512, s / 512)), so the result is the
  distance matrix.
-/
import proofs.«117172_j65712999629574_1_alg».proof.Proof.KDat
import proofs.«117172_j65712999629574_1_alg».proof.Proof.KPayload
import Idealize.ShloMosaic.Lib.Pipeline.Value

noncomputable section

open scoped BigOperators

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- One entry of one block: if the two loaded blocks are row blocks `bi` and `bj` of the matrix `X`, the stored block at
    `y` is the distance matrix of `X` at the entry `i` that sits at `y` inside block `(bi, bj)`. -/
theorem point_eq (X : Cert.PairDist.SX.Idx → EReal) (x0 x1 : Vec Ideal S512x2048 .f32) (bi bj : ℕ)
    (h0 : ∀ (p : Fin 512) (k : Fin 2048) (r : Fin 4096), r.val = bi * 512 + p.val → x0 (ix2 p k) = X (ix2 r k))
    (h1 : ∀ (q : Fin 512) (k : Fin 2048) (r : Fin 4096), r.val = bj * 512 + q.val → x1 (ix2 q k) = X (ix2 r k))
    (y : S512x512.Idx) (i : Cert.PairDist.SD.Idx)
    (hi0 : (i 0).val = bi * 512 + (y 0).val) (hi1 : (i 1).val = bj * 512 + (y 1).val) :
    Gen.k0_pay1 (F := Ideal) x0 x1 y = Cert.PairDist.dist X i := by
  obtain ⟨p, q, rfl⟩ : ∃ (p q : Fin 512), y = ix2 p q := ⟨y 0, y 1, eq_ix2 y⟩
  obtain ⟨r, s, rfl⟩ : ∃ (r s : Fin 4096), i = ix2 r s := ⟨i 0, i 1, eq_ix2 i⟩
  have hr : r.val = bi * 512 + p.val := hi0
  have hs : s.val = bj * 512 + q.val := hi1
  have e0 : ∀ k, x0 (ix2 p k) = X (ix2 r k) := fun k => h0 p k r hr
  have e1 : ∀ k, x1 (ix2 q k) = X (ix2 s k) := fun k => h1 q k s hs
  rw [pay_apply, Cert.PairDist.dist_ix2]
  unfold Cert.PairDist.distAt Cert.PairDist.sqn Cert.PairDist.dot
  simp only [e0, e1]

variable (m : (ℓ : Loc nD τ sig) → Buf (Elt Ideal) ℓ)

theorem hz : (![0, 0] : Fin 2 → Nat) = fun _ => 0 := funext fun a => by fin_cases a <;> rfl

/-- The index maps over the grid: the first input window's block row is the output's block row, the second's the
    output's block column, both input windows at block column zero; the output's block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is block `t` of the distance matrix of the argument. -/
theorem flushed_eq (c : Dev nD) (t : Fin cfg0.N) :
    (dats (F := Ideal) m 0 c).flushed 2 t
      = ((cfg0.win 2).blk t).view.read (Elt Ideal) (Cert.PairDist.dist (m ((c : Thread nD τ).loc main_arg0))) := by
  show (cfg0.win 2).cut (grid0.coords t) ((dats m 0 c).after 2 t) = _
  rw [after0_2]
  unfold outBlock
  rw [View.canon_unit_zero hz]
  simp only [View.ld_unit_zero (S := S512x2048) hz]
  obtain ⟨e0, e1, e2, e3, e4, e5⟩ := idx_facts t
  funext j
  show Gen.k0_pay1 (F := Ideal) (iblk m c 0 t) (iblk m c 1 t) j
    = Cert.PairDist.dist (m ((c : Thread nD τ).loc main_arg0)) (((cfg0.win 2).blk t).view.emb j)
  refine point_eq _ _ _ (win0_2.index t (0 : Fin 2)) (win0_2.index t (1 : Fin 2)) ?_ ?_ j _ ?_ ?_
  · intro p k r hr
    show V m c main_arg0 (((cfg0.win 0).blk t).view.emb (ix2 p k)) = _
    refine congrArg (m ((c : Thread nD τ).loc main_arg0)) (funext fun a => Fin.ext ?_)
    match a with
    | ⟨0, _⟩ => show win0_0.index t (0 : Fin 2) * 512 + 1 * p.val = r.val; omega
    | ⟨1, _⟩ => show win0_0.index t (1 : Fin 2) * 2048 + 1 * k.val = k.val; omega
  · intro q k r hr
    show V m c main_arg0 (((cfg0.win 1).blk t).view.emb (ix2 q k)) = _
    refine congrArg (m ((c : Thread nD τ).loc main_arg0)) (funext fun a => Fin.ext ?_)
    match a with
    | ⟨0, _⟩ => show win0_1.index t (0 : Fin 2) * 512 + 1 * q.val = r.val; omega
    | ⟨1, _⟩ => show win0_1.index t (1 : Fin 2) * 2048 + 1 * k.val = k.val; omega
  · show win0_2.index t (0 : Fin 2) * 512 + 1 * (j 0).val = win0_2.index t (0 : Fin 2) * 512 + (j 0).val; omega
  · show win0_2.index t (1 : Fin 2) * 512 + 1 * (j 1).val = win0_2.index t (1 : Fin 2) * 512 + (j 1).val; omega

/-- An entry of the result is in point `t`'s block iff each coordinate is in the block's range on its axis. -/
theorem mem_blk (t : Fin cfg0.N) (i : S4096x4096.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Every entry of the result is in some point's block: entry `(r, s)` in that of the point with block indices
    `(r / 512, s / 512)`. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE RESULT ARRAY after the run is the distance matrix of the argument. -/
theorem final2 (c : Dev nD) :
    ((dats (F := Ideal) m 0 c).arrAt 2 cfg0.N : Cert.PairDist.SD.Idx → EReal)
      = Cert.PairDist.dist (m ((c : Thread nD τ).loc main_arg0)) :=
  (dats (F := Ideal) m 0 c).arrAt_eq_of_cover 2 (Cert.PairDist.dist (m ((c : Thread nD τ).loc main_arg0)))
    (fun t _ => flushed_eq m c t) cover

end Cert.KernelIdeal.KValue

end
-- ==== Proof.RefOps.lean ====
/-
  The reference program's @main as a list of its host operations, the module-local functions' bodies written out at
  their call sites over each call's buffers: the operations up to and including the square root that produces the
  distance matrix (`headOps`), and all the operations after it (`tailOps`). @main is the straight line of the two
  lists in order, and every operation touches TensorCore references only.
-/
import proofs.«117172_j65712999629574_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, in order. -/
abbrev part0Ops : List (HloOp τ sig (Elt F)) :=
  [ StableHlo.binary main_arg0 main_arg0 main_v0 (mulf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x00000000#32),
    StableHlo.binary main_v0 main_cst main_v1 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v1 main_v3 (broadcastInDim S1x4096 ![1] bcast_S4096_S1x4096_1 : (⟨S4096, .f32⟩ : BufTy).Contents (Elt F) → (⟨S1x4096, .f32⟩ : BufTy).Contents (Elt F)),
    StableHlo.unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    StableHlo.unary main_arg0 main_v7 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v7 main_v8 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.nullary main_cst_0 (constant S_ .f32 0x40000000#32),
    StableHlo.unary main_cst_0 main_v9 (broadcastInDim S4096x4096 ![] bcast_S_S4096x4096 : (⟨S_, .f32⟩ : BufTy).Contents (Elt F) → (⟨S4096x4096, .f32⟩ : BufTy).Contents (Elt F)),
    StableHlo.binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    StableHlo.binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x2B8CBCCC#32),
    StableHlo.TRef.unary (.of main_cst_1 : StableHlo.TRef sig ⟨S_, .f32⟩) main_call0.v0 id,
    StableHlo.TRef.unary main_call0.v0 main_call0.v1 (broadcastInDim S4096x4096 ![] bcast_S_S4096x4096),
    StableHlo.TRef.binary main_call0.v1 (.of main_v11 : StableHlo.TRef sig ⟨S4096x4096, .f32⟩) main_call0.v2 maximumf,
    StableHlo.unary main_v12 main_v13 (Host.sqrt : (⟨S4096x4096, .f32⟩ : BufTy).Contents (Elt F) → (⟨S4096x4096, .f32⟩ : BufTy).Contents (Elt F)),
    StableHlo.unary main_arg1 main_v14 (broadcastInDim S4096x1 ![0] bcast_S4096_S4096x1_0 : (⟨S4096, .i32⟩ : BufTy).Contents (Elt F) → (⟨S4096x1, .i32⟩ : BufTy).Contents (Elt F)),
    StableHlo.unary main_arg1 main_v15 (broadcastInDim S1x4096 ![1] bcast_S4096_S1x4096_1 : (⟨S4096, .i32⟩ : BufTy).Contents (Elt F) → (⟨S1x4096, .i32⟩ : BufTy).Contents (Elt F)),
    StableHlo.unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v16 main_v17 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_2 (constant S_ .f32 0x7F800000#32),
    StableHlo.unary main_cst_2 main_v19 (Host.negf : (⟨S_, .f32⟩ : BufTy).Contents (Elt F) → (⟨S_, .f32⟩ : BufTy).Contents (Elt F)),
    StableHlo.TRef.unary (.of main_v19 : StableHlo.TRef sig ⟨S_, .f32⟩) main_call1.v0 (broadcastInDim S4096x4096 ![] bcast_S_S4096x4096),
    StableHlo.TRef.ternary (.of main_v18 : StableHlo.TRef sig ⟨S4096x4096, .i1⟩) (.of main_v13 : StableHlo.TRef sig ⟨S4096x4096, .f32⟩) main_call1.v0 main_call1.v1 select,
    StableHlo.nullary main_cst_3 (constant S_ .f32 0xFF800000#32),
    StableHlo.binary main_v20 main_cst_3 main_v21 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_4 (constant S_ .f32 0x7F800000#32),
    StableHlo.TRef.unary (.of main_cst_4 : StableHlo.TRef sig ⟨S_, .f32⟩) main_call2.v0 (broadcastInDim S4096x4096 ![] bcast_S_S4096x4096),
    StableHlo.TRef.ternary (.of main_v18 : StableHlo.TRef sig ⟨S4096x4096, .i1⟩) main_call2.v0 (.of main_v13 : StableHlo.TRef sig ⟨S4096x4096, .f32⟩) main_call2.v1 select,
    StableHlo.nullary main_cst_5 (constant S_ .f32 0x7F800000#32),
    StableHlo.binary main_v22 main_cst_5 main_v23 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v21 main_v24 (broadcastInDim S4096x1 ![0] bcast_S4096_S4096x1_0 : (⟨S4096, .f32⟩ : BufTy).Contents (Elt F) → (⟨S4096x1, .f32⟩ : BufTy).Contents (Elt F)),
    StableHlo.unary main_v24 main_v25 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v25 main_v26 (cmpf .oeq : (⟨S4096x4096, .f32⟩ : BufTy).Contents (Elt F) → (⟨S4096x4096, .f32⟩ : BufTy).Contents (Elt F) → (⟨S4096x4096, .i1⟩ : BufTy).Contents (Elt F)),
    StableHlo.binary main_v26 main_v18 main_v27 (andi : (⟨S4096x4096, .i1⟩ : BufTy).Contents (Elt F) → (⟨S4096x4096, .i1⟩ : BufTy).Contents (Elt F) → (⟨S4096x4096, .i1⟩ : BufTy).Contents (Elt F)),
    StableHlo.unary main_v27 main_v28 (Host.reverse [1] : (⟨S4096x4096, .i1⟩ : BufTy).Contents (Elt F) → (⟨S4096x4096, .i1⟩ : BufTy).Contents (Elt F)),
    StableHlo.TRef.nullary main_call3.v0 (iotaInDim S4096x4096 32 1),
    StableHlo.TRef.nullary main_call3.c (constantI S_ 1 0#1),
    StableHlo.TRef.nullary main_call3.c_0 (constantI S_ 32 0#32),
    StableHlo.TRef.quaternary (.of main_v28 : StableHlo.TRef sig ⟨S4096x4096, .i1⟩) main_call3.v0 main_call3.c main_call3.c_0 main_call3.v1_0 (fun x y u v j => (Host.reduce2 reducer_argmax_i1_i32 x y u v reducesTo_S4096x4096_S4096_d1 h_S_ j).1),
    StableHlo.TRef.quaternary (.of main_v28 : StableHlo.TRef sig ⟨S4096x4096, .i1⟩) main_call3.v0 main_call3.c main_call3.c_0 main_call3.v1_1 (fun x y u v j => (Host.reduce2 reducer_argmax_i1_i32 x y u v reducesTo_S4096x4096_S4096_d1 h_S_ j).2),
    StableHlo.nullary main_c (constantI S_ 32 4095#32),
    StableHlo.unary main_c main_v30 (broadcastInDim S4096 ![] bcast_S_S4096 : (⟨S_, .i32⟩ : BufTy).Contents (Elt F) → (⟨S4096, .i32⟩ : BufTy).Contents (Elt F)),
    StableHlo.binary main_v30 main_v29 main_v31 (subi : (⟨S4096, .i32⟩ : BufTy).Contents (Elt F) → (⟨S4096, .i32⟩ : BufTy).Contents (Elt F) → (⟨S4096, .i32⟩ : BufTy).Contents (Elt F)),
    StableHlo.unary main_v23 main_v32 (broadcastInDim S4096x1 ![0] bcast_S4096_S4096x1_0 : (⟨S4096, .f32⟩ : BufTy).Contents (Elt F) → (⟨S4096x1, .f32⟩ : BufTy).Contents (Elt F)),
    StableHlo.unary main_v32 main_v33 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v33 main_v34 (cmpf .oeq : (⟨S4096x4096, .f32⟩ : BufTy).Contents (Elt F) → (⟨S4096x4096, .f32⟩ : BufTy).Contents (Elt F) → (⟨S4096x4096, .i1⟩ : BufTy).Contents (Elt F)),
    StableHlo.unary main_v18 main_v35 (noti : (⟨S4096x4096, .i1⟩ : BufTy).Contents (Elt F) → (⟨S4096x4096, .i1⟩ : BufTy).Contents (Elt F)),
    StableHlo.binary main_v34 main_v35 main_v36 (andi : (⟨S4096x4096, .i1⟩ : BufTy).Contents (Elt F) → (⟨S4096x4096, .i1⟩ : BufTy).Contents (Elt F) → (⟨S4096x4096, .i1⟩ : BufTy).Contents (Elt F)),
    StableHlo.unary main_v36 main_v37 (Host.reverse [1] : (⟨S4096x4096, .i1⟩ : BufTy).Contents (Elt F) → (⟨S4096x4096, .i1⟩ : BufTy).Contents (Elt F)),
    StableHlo.TRef.nullary main_call4.v0 (iotaInDim S4096x4096 32 1),
    StableHlo.TRef.nullary main_call4.c (constantI S_ 1 0#1),
    StableHlo.TRef.nullary main_call4.c_0 (constantI S_ 32 0#32),
    StableHlo.TRef.quaternary (.of main_v37 : StableHlo.TRef sig ⟨S4096x4096, .i1⟩) main_call4.v0 main_call4.c main_call4.c_0 main_call4.v1_0 (fun x y u v j => (Host.reduce2 reducer_argmax_i1_i32 x y u v reducesTo_S4096x4096_S4096_d1 h_S_ j).1),
    StableHlo.TRef.quaternary (.of main_v37 : StableHlo.TRef sig ⟨S4096x4096, .i1⟩) main_call4.v0 main_call4.c main_call4.c_0 main_call4.v1_1 (fun x y u v j => (Host.reduce2 reducer_argmax_i1_i32 x y u v reducesTo_S4096x4096_S4096_d1 h_S_ j).2),
    StableHlo.nullary main_c_6 (constantI S_ 32 4095#32),
    StableHlo.unary main_c_6 main_v39 (broadcastInDim S4096 ![] bcast_S_S4096 : (⟨S_, .i32⟩ : BufTy).Contents (Elt F) → (⟨S4096, .i32⟩ : BufTy).Contents (Elt F)),
    StableHlo.binary main_v39 main_v38 main_v40 (subi : (⟨S4096, .i32⟩ : BufTy).Contents (Elt F) → (⟨S4096, .i32⟩ : BufTy).Contents (Elt F) → (⟨S4096, .i32⟩ : BufTy).Contents (Elt F)),
    StableHlo.nullary main_c_7 (constantI S_ 32 0#32),
    StableHlo.unary main_c_7 main_v41 (broadcastInDim S4096 ![] bcast_S_S4096 : (⟨S_, .i32⟩ : BufTy).Contents (Elt F) → (⟨S4096, .i32⟩ : BufTy).Contents (Elt F)),
    StableHlo.binary main_v31 main_v41 main_v42 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 4096#32),
    StableHlo.unary main_c_8 main_v43 (broadcastInDim S4096 ![] bcast_S_S4096 : (⟨S_, .i32⟩ : BufTy).Contents (Elt F) → (⟨S4096, .i32⟩ : BufTy).Contents (Elt F)),
    StableHlo.binary main_v31 main_v43 main_v44 (addi : (⟨S4096, .i32⟩ : BufTy).Contents (Elt F) → (⟨S4096, .i32⟩ : BufTy).Contents (Elt F) → (⟨S4096, .i32⟩ : BufTy).Contents (Elt F)),
    StableHlo.ternary main_v42 main_v44 main_v31 main_v45 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_9 (constantI S_ 32 0#32),
    StableHlo.unary main_c_9 main_v46 (broadcastInDim S4096 ![] bcast_S_S4096 : (⟨S_, .i32⟩ : BufTy).Contents (Elt F) → (⟨S4096, .i32⟩ : BufTy).Contents (Elt F)),
    StableHlo.binary main_v40 main_v46 main_v47 (cmpi .slt : (⟨S4096, .i32⟩ : BufTy).Contents (Elt F) → (⟨S4096, .i32⟩ : BufTy).Contents (Elt F) → (⟨S4096, .i1⟩ : BufTy).Contents (Elt F)) ]

/-- The operations of @main's statements 61 … 120, in order. -/
abbrev part1Ops : List (HloOp τ sig (Elt F)) :=
  [ StableHlo.nullary main_c_10 (constantI S_ 32 4096#32),
    StableHlo.unary main_c_10 main_v48 (broadcastInDim S4096 ![] bcast_S_S4096 : (⟨S_, .i32⟩ : BufTy).Contents (Elt F) → (⟨S4096, .i32⟩ : BufTy).Contents (Elt F)),
    StableHlo.binary main_v40 main_v48 main_v49 (addi : (⟨S4096, .i32⟩ : BufTy).Contents (Elt F) → (⟨S4096, .i32⟩ : BufTy).Contents (Elt F) → (⟨S4096, .i32⟩ : BufTy).Contents (Elt F)),
    StableHlo.ternary main_v47 main_v49 main_v40 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v45 main_v51 (broadcastInDim S4096x1 ![0] bcast_S4096_S4096x1_0 : (⟨S4096, .i32⟩ : BufTy).Contents (Elt F) → (⟨S4096x1, .i32⟩ : BufTy).Contents (Elt F)),
    StableHlo.unary main_v50 main_v52 (broadcastInDim S4096x1 ![0] bcast_S4096_S4096x1_0 : (⟨S4096, .i32⟩ : BufTy).Contents (Elt F) → (⟨S4096x1, .i32⟩ : BufTy).Contents (Elt F)),
    StableHlo.binary main_v51 main_v52 main_v53 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v13 main_v53 main_v54 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_c_11 (constantI S_ 32 0#32),
    StableHlo.unary main_c_11 main_v55 (broadcastInDim S4096 ![] bcast_S_S4096 : (⟨S_, .i32⟩ : BufTy).Contents (Elt F) → (⟨S4096, .i32⟩ : BufTy).Contents (Elt F)),
    StableHlo.binary main_v40 main_v55 main_v56 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v57 (broadcastInDim S4096 ![] bcast_S_S4096 : (⟨S_, .i32⟩ : BufTy).Contents (Elt F) → (⟨S4096, .i32⟩ : BufTy).Contents (Elt F)),
    StableHlo.binary main_v40 main_v57 main_v58 (addi : (⟨S4096, .i32⟩ : BufTy).Contents (Elt F) → (⟨S4096, .i32⟩ : BufTy).Contents (Elt F) → (⟨S4096, .i32⟩ : BufTy).Contents (Elt F)),
    StableHlo.ternary main_v56 main_v58 main_v40 main_v59 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v59 main_v60 (broadcastInDim S4096x1 ![0] bcast_S4096_S4096x1_0 : (⟨S4096, .i32⟩ : BufTy).Contents (Elt F) → (⟨S4096x1, .i32⟩ : BufTy).Contents (Elt F)),
    StableHlo.binary main_arg1 main_v60 main_v61 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.unary main_arg1 main_v62 (broadcastInDim S1x4096 ![1] bcast_S4096_S1x4096_1 : (⟨S4096, .i32⟩ : BufTy).Contents (Elt F) → (⟨S1x4096, .i32⟩ : BufTy).Contents (Elt F)),
    StableHlo.unary main_arg1 main_v63 (broadcastInDim S4096x1 ![0] bcast_S4096_S4096x1_0 : (⟨S4096, .i32⟩ : BufTy).Contents (Elt F) → (⟨S4096x1, .i32⟩ : BufTy).Contents (Elt F)),
    StableHlo.unary main_v62 main_v64 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v63 main_v65 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v64 main_v65 main_v66 (cmpi .ne : (⟨S4096x4096, .i32⟩ : BufTy).Contents (Elt F) → (⟨S4096x4096, .i32⟩ : BufTy).Contents (Elt F) → (⟨S4096x4096, .i1⟩ : BufTy).Contents (Elt F)),
    StableHlo.unary main_arg1 main_v67 (broadcastInDim S1x4096 ![1] bcast_S4096_S1x4096_1 : (⟨S4096, .i32⟩ : BufTy).Contents (Elt F) → (⟨S1x4096, .i32⟩ : BufTy).Contents (Elt F)),
    StableHlo.unary main_v61 main_v68 (broadcastInDim S4096x1 ![0] bcast_S4096_S4096x1_0 : (⟨S4096, .i32⟩ : BufTy).Contents (Elt F) → (⟨S4096x1, .i32⟩ : BufTy).Contents (Elt F)),
    StableHlo.unary main_v67 main_v69 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v68 main_v70 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v69 main_v70 main_v71 (cmpi .ne : (⟨S4096x4096, .i32⟩ : BufTy).Contents (Elt F) → (⟨S4096x4096, .i32⟩ : BufTy).Contents (Elt F) → (⟨S4096x4096, .i1⟩ : BufTy).Contents (Elt F)),
    StableHlo.binary main_v66 main_v71 main_v72 (andi : (⟨S4096x4096, .i1⟩ : BufTy).Contents (Elt F) → (⟨S4096x4096, .i1⟩ : BufTy).Contents (Elt F) → (⟨S4096x4096, .i1⟩ : BufTy).Contents (Elt F)),
    StableHlo.nullary main_c_13 (constantI S_ 32 0#32),
    StableHlo.unary main_c_13 main_v73 (broadcastInDim S4096 ![] bcast_S_S4096 : (⟨S_, .i32⟩ : BufTy).Contents (Elt F) → (⟨S4096, .i32⟩ : BufTy).Contents (Elt F)),
    StableHlo.binary main_v40 main_v73 main_v74 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 4096#32),
    StableHlo.unary main_c_14 main_v75 (broadcastInDim S4096 ![] bcast_S_S4096 : (⟨S_, .i32⟩ : BufTy).Contents (Elt F) → (⟨S4096, .i32⟩ : BufTy).Contents (Elt F)),
    StableHlo.binary main_v40 main_v75 main_v76 (addi : (⟨S4096, .i32⟩ : BufTy).Contents (Elt F) → (⟨S4096, .i32⟩ : BufTy).Contents (Elt F) → (⟨S4096, .i32⟩ : BufTy).Contents (Elt F)),
    StableHlo.ternary main_v74 main_v76 main_v40 main_v77 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v77 main_v78 (broadcastInDim S4096x1 ![0] bcast_S4096_S4096x1_0 : (⟨S4096, .i32⟩ : BufTy).Contents (Elt F) → (⟨S4096x1, .i32⟩ : BufTy).Contents (Elt F)),
    StableHlo.binary main_v13 main_v78 main_v79 ((fun x i => Host.gather gather_S4096x4096_S4096x1_S4096x4096_1_0_n_n_0_1_14096 x i) : (⟨S4096x4096, .f32⟩ : BufTy).Contents (Elt F) → (⟨S4096x1, .i32⟩ : BufTy).Contents (Elt F) → (⟨S4096x4096, .f32⟩ : BufTy).Contents (Elt F)),
    StableHlo.nullary main_cst_15 (constant S_ .f32 0x7F800000#32),
    StableHlo.TRef.unary (.of main_cst_15 : StableHlo.TRef sig ⟨S_, .f32⟩) main_call5.v0 (broadcastInDim S4096x4096 ![] bcast_S_S4096x4096),
    StableHlo.TRef.ternary (.of main_v72 : StableHlo.TRef sig ⟨S4096x4096, .i1⟩) (.of main_v79 : StableHlo.TRef sig ⟨S4096x4096, .f32⟩) main_call5.v0 main_call5.v1 select,
    StableHlo.nullary main_cst_16 (constant S_ .f32 0x7F800000#32),
    StableHlo.binary main_v80 main_cst_16 main_v81 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v81 main_v82 (broadcastInDim S4096x1 ![0] bcast_S4096_S4096x1_0 : (⟨S4096, .f32⟩ : BufTy).Contents (Elt F) → (⟨S4096x1, .f32⟩ : BufTy).Contents (Elt F)),
    StableHlo.unary main_v82 main_v83 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v79 main_v83 main_v84 (cmpf .oeq : (⟨S4096x4096, .f32⟩ : BufTy).Contents (Elt F) → (⟨S4096x4096, .f32⟩ : BufTy).Contents (Elt F) → (⟨S4096x4096, .i1⟩ : BufTy).Contents (Elt F)),
    StableHlo.binary main_v84 main_v72 main_v85 (andi : (⟨S4096x4096, .i1⟩ : BufTy).Contents (Elt F) → (⟨S4096x4096, .i1⟩ : BufTy).Contents (Elt F) → (⟨S4096x4096, .i1⟩ : BufTy).Contents (Elt F)),
    StableHlo.unary main_v85 main_v86 (Host.reverse [1] : (⟨S4096x4096, .i1⟩ : BufTy).Contents (Elt F) → (⟨S4096x4096, .i1⟩ : BufTy).Contents (Elt F)),
    StableHlo.TRef.nullary main_call6.v0 (iotaInDim S4096x4096 32 1),
    StableHlo.TRef.nullary main_call6.c (constantI S_ 1 0#1),
    StableHlo.TRef.nullary main_call6.c_0 (constantI S_ 32 0#32),
    StableHlo.TRef.quaternary (.of main_v86 : StableHlo.TRef sig ⟨S4096x4096, .i1⟩) main_call6.v0 main_call6.c main_call6.c_0 main_call6.v1_0 (fun x y u v j => (Host.reduce2 reducer_argmax_i1_i32 x y u v reducesTo_S4096x4096_S4096_d1 h_S_ j).1),
    StableHlo.TRef.quaternary (.of main_v86 : StableHlo.TRef sig ⟨S4096x4096, .i1⟩) main_call6.v0 main_call6.c main_call6.c_0 main_call6.v1_1 (fun x y u v j => (Host.reduce2 reducer_argmax_i1_i32 x y u v reducesTo_S4096x4096_S4096_d1 h_S_ j).2),
    StableHlo.nullary main_c_17 (constantI S_ 32 4095#32),
    StableHlo.unary main_c_17 main_v88 (broadcastInDim S4096 ![] bcast_S_S4096 : (⟨S_, .i32⟩ : BufTy).Contents (Elt F) → (⟨S4096, .i32⟩ : BufTy).Contents (Elt F)),
    StableHlo.binary main_v88 main_v87 main_v89 (subi : (⟨S4096, .i32⟩ : BufTy).Contents (Elt F) → (⟨S4096, .i32⟩ : BufTy).Contents (Elt F) → (⟨S4096, .i32⟩ : BufTy).Contents (Elt F)),
    StableHlo.nullary main_v90 (iotaInDim S4096 32 0),
    StableHlo.nullary main_c_18 (constantI S_ 32 0#32),
    StableHlo.unary main_c_18 main_v91 (broadcastInDim S4096 ![] bcast_S_S4096 : (⟨S_, .i32⟩ : BufTy).Contents (Elt F) → (⟨S4096, .i32⟩ : BufTy).Contents (Elt F)),
    StableHlo.binary main_v90 main_v91 main_v92 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 4096#32),
    StableHlo.unary main_c_19 main_v93 (broadcastInDim S4096 ![] bcast_S_S4096 : (⟨S_, .i32⟩ : BufTy).Contents (Elt F) → (⟨S4096, .i32⟩ : BufTy).Contents (Elt F)),
    StableHlo.binary main_v90 main_v93 main_v94 (addi : (⟨S4096, .i32⟩ : BufTy).Contents (Elt F) → (⟨S4096, .i32⟩ : BufTy).Contents (Elt F) → (⟨S4096, .i32⟩ : BufTy).Contents (Elt F)),
    StableHlo.ternary main_v92 main_v94 main_v90 main_v95 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_20 (constantI S_ 32 0#32),
    StableHlo.unary main_c_20 main_v96 (broadcastInDim S4096 ![] bcast_S_S4096 : (⟨S_, .i32⟩ : BufTy).Contents (Elt F) → (⟨S4096, .i32⟩ : BufTy).Contents (Elt F)) ]

/-- The operations of @main's statements 121 … 163, in order. -/
abbrev part2Ops : List (HloOp τ sig (Elt F)) :=
  [ StableHlo.binary main_v89 main_v96 main_v97 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 4096#32),
    StableHlo.unary main_c_21 main_v98 (broadcastInDim S4096 ![] bcast_S_S4096 : (⟨S_, .i32⟩ : BufTy).Contents (Elt F) → (⟨S4096, .i32⟩ : BufTy).Contents (Elt F)),
    StableHlo.binary main_v89 main_v98 main_v99 (addi : (⟨S4096, .i32⟩ : BufTy).Contents (Elt F) → (⟨S4096, .i32⟩ : BufTy).Contents (Elt F) → (⟨S4096, .i32⟩ : BufTy).Contents (Elt F)),
    StableHlo.ternary main_v97 main_v99 main_v89 main_v100 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v95 main_v101 (broadcastInDim S4096x1 ![0] bcast_S4096_S4096x1_0 : (⟨S4096, .i32⟩ : BufTy).Contents (Elt F) → (⟨S4096x1, .i32⟩ : BufTy).Contents (Elt F)),
    StableHlo.unary main_v100 main_v102 (broadcastInDim S4096x1 ![0] bcast_S4096_S4096x1_0 : (⟨S4096, .i32⟩ : BufTy).Contents (Elt F) → (⟨S4096x1, .i32⟩ : BufTy).Contents (Elt F)),
    StableHlo.binary main_v101 main_v102 main_v103 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v13 main_v103 main_v104 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_v105 (iotaInDim S4096 32 0),
    StableHlo.nullary main_c_22 (constantI S_ 32 0#32),
    StableHlo.unary main_c_22 main_v106 (broadcastInDim S4096 ![] bcast_S_S4096 : (⟨S_, .i32⟩ : BufTy).Contents (Elt F) → (⟨S4096, .i32⟩ : BufTy).Contents (Elt F)),
    StableHlo.binary main_v105 main_v106 main_v107 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 4096#32),
    StableHlo.unary main_c_23 main_v108 (broadcastInDim S4096 ![] bcast_S_S4096 : (⟨S_, .i32⟩ : BufTy).Contents (Elt F) → (⟨S4096, .i32⟩ : BufTy).Contents (Elt F)),
    StableHlo.binary main_v105 main_v108 main_v109 (addi : (⟨S4096, .i32⟩ : BufTy).Contents (Elt F) → (⟨S4096, .i32⟩ : BufTy).Contents (Elt F) → (⟨S4096, .i32⟩ : BufTy).Contents (Elt F)),
    StableHlo.ternary main_v107 main_v109 main_v105 main_v110 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_24 (constantI S_ 32 0#32),
    StableHlo.unary main_c_24 main_v111 (broadcastInDim S4096 ![] bcast_S_S4096 : (⟨S_, .i32⟩ : BufTy).Contents (Elt F) → (⟨S4096, .i32⟩ : BufTy).Contents (Elt F)),
    StableHlo.binary main_v89 main_v111 main_v112 (cmpi .slt : (⟨S4096, .i32⟩ : BufTy).Contents (Elt F) → (⟨S4096, .i32⟩ : BufTy).Contents (Elt F) → (⟨S4096, .i1⟩ : BufTy).Contents (Elt F)),
    StableHlo.nullary main_c_25 (constantI S_ 32 4096#32),
    StableHlo.unary main_c_25 main_v113 (broadcastInDim S4096 ![] bcast_S_S4096 : (⟨S_, .i32⟩ : BufTy).Contents (Elt F) → (⟨S4096, .i32⟩ : BufTy).Contents (Elt F)),
    StableHlo.binary main_v89 main_v113 main_v114 (addi : (⟨S4096, .i32⟩ : BufTy).Contents (Elt F) → (⟨S4096, .i32⟩ : BufTy).Contents (Elt F) → (⟨S4096, .i32⟩ : BufTy).Contents (Elt F)),
    StableHlo.ternary main_v112 main_v114 main_v89 main_v115 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v110 main_v116 (broadcastInDim S4096x1 ![0] bcast_S4096_S4096x1_0 : (⟨S4096, .i32⟩ : BufTy).Contents (Elt F) → (⟨S4096x1, .i32⟩ : BufTy).Contents (Elt F)),
    StableHlo.unary main_v115 main_v117 (broadcastInDim S4096x1 ![0] bcast_S4096_S4096x1_0 : (⟨S4096, .i32⟩ : BufTy).Contents (Elt F) → (⟨S4096x1, .i32⟩ : BufTy).Contents (Elt F)),
    StableHlo.binary main_v116 main_v117 main_v118 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v79 main_v118 main_v119 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.binary main_v21 main_v23 main_v120 (subf : (⟨S4096, .f32⟩ : BufTy).Contents (Elt F) → (⟨S4096, .f32⟩ : BufTy).Contents (Elt F) → (⟨S4096, .f32⟩ : BufTy).Contents (Elt F)),
    StableHlo.nullary main_cst_26 (constant S_ .f32 0x00000000#32),
    StableHlo.unary main_cst_26 main_v121 (broadcastInDim S4096 ![] bcast_S_S4096 : (⟨S_, .f32⟩ : BufTy).Contents (Elt F) → (⟨S4096, .f32⟩ : BufTy).Contents (Elt F)),
    StableHlo.binary main_v120 main_v121 main_v122 (addf : (⟨S4096, .f32⟩ : BufTy).Contents (Elt F) → (⟨S4096, .f32⟩ : BufTy).Contents (Elt F) → (⟨S4096, .f32⟩ : BufTy).Contents (Elt F)),
    StableHlo.TRef.nullary main_call7.cst (constant S_ .f32 0x00000000#32),
    StableHlo.TRef.unary main_call7.cst main_call7.v0 (broadcastInDim S4096 ![] bcast_S_S4096),
    StableHlo.TRef.binary (.of main_v122 : StableHlo.TRef sig ⟨S4096, .f32⟩) main_call7.v0 main_call7.v1 maximumf,
    StableHlo.binary main_v23 main_v54 main_v124 (subf : (⟨S4096, .f32⟩ : BufTy).Contents (Elt F) → (⟨S4096, .f32⟩ : BufTy).Contents (Elt F) → (⟨S4096, .f32⟩ : BufTy).Contents (Elt F)),
    StableHlo.unary main_v124 main_v125 (Host.absf : (⟨S4096, .f32⟩ : BufTy).Contents (Elt F) → (⟨S4096, .f32⟩ : BufTy).Contents (Elt F)),
    StableHlo.binary main_v104 main_v119 main_v126 (subf : (⟨S4096, .f32⟩ : BufTy).Contents (Elt F) → (⟨S4096, .f32⟩ : BufTy).Contents (Elt F) → (⟨S4096, .f32⟩ : BufTy).Contents (Elt F)),
    StableHlo.unary main_v126 main_v127 (Host.absf : (⟨S4096, .f32⟩ : BufTy).Contents (Elt F) → (⟨S4096, .f32⟩ : BufTy).Contents (Elt F)),
    StableHlo.binary main_v123 main_v125 main_v128 (addf : (⟨S4096, .f32⟩ : BufTy).Contents (Elt F) → (⟨S4096, .f32⟩ : BufTy).Contents (Elt F) → (⟨S4096, .f32⟩ : BufTy).Contents (Elt F)),
    StableHlo.binary main_v128 main_v127 main_v129 (addf : (⟨S4096, .f32⟩ : BufTy).Contents (Elt F) → (⟨S4096, .f32⟩ : BufTy).Contents (Elt F) → (⟨S4096, .f32⟩ : BufTy).Contents (Elt F)),
    StableHlo.nullary main_cst_27 (constant S_ .f32 0x00000000#32),
    StableHlo.binary main_v129 main_cst_27 main_v130 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_28 (constant S_ .f32 0x45800000#32),
    StableHlo.binary main_v130 main_cst_28 main_v131 (Host.divf : (⟨S_, .f32⟩ : BufTy).Contents (Elt F) → (⟨S_, .f32⟩ : BufTy).Contents (Elt F) → (⟨S_, .f32⟩ : BufTy).Contents (Elt F)) ]

/-- The operations up to and including the square root: the squares, the row sums, their two broadcasts and sum, the
    transpose and the matrix product, twice it, the difference, the clamp from below, the square root. -/
abbrev headOps : List (HloOp τ sig (Elt F)) :=
  [ StableHlo.binary main_arg0 main_arg0 main_v0 (mulf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x00000000#32),
    StableHlo.binary main_v0 main_cst main_v1 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v1 main_v3 (broadcastInDim S1x4096 ![1] bcast_S4096_S1x4096_1 : (⟨S4096, .f32⟩ : BufTy).Contents (Elt F) → (⟨S1x4096, .f32⟩ : BufTy).Contents (Elt F)),
    StableHlo.unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    StableHlo.unary main_arg0 main_v7 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v7 main_v8 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.nullary main_cst_0 (constant S_ .f32 0x40000000#32),
    StableHlo.unary main_cst_0 main_v9 (broadcastInDim S4096x4096 ![] bcast_S_S4096x4096 : (⟨S_, .f32⟩ : BufTy).Contents (Elt F) → (⟨S4096x4096, .f32⟩ : BufTy).Contents (Elt F)),
    StableHlo.binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    StableHlo.binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x2B8CBCCC#32),
    StableHlo.TRef.unary (.of main_cst_1 : StableHlo.TRef sig ⟨S_, .f32⟩) main_call0.v0 id,
    StableHlo.TRef.unary main_call0.v0 main_call0.v1 (broadcastInDim S4096x4096 ![] bcast_S_S4096x4096),
    StableHlo.TRef.binary main_call0.v1 (.of main_v11 : StableHlo.TRef sig ⟨S4096x4096, .f32⟩) main_call0.v2 maximumf,
    StableHlo.unary main_v12 main_v13 (Host.sqrt : (⟨S4096x4096, .f32⟩ : BufTy).Contents (Elt F) → (⟨S4096x4096, .f32⟩ : BufTy).Contents (Elt F)) ]

/-- Every operation after the square root, in order. -/
abbrev tailOps : List (HloOp τ sig (Elt F)) :=
  [ StableHlo.unary main_arg1 main_v14 (broadcastInDim S4096x1 ![0] bcast_S4096_S4096x1_0 : (⟨S4096, .i32⟩ : BufTy).Contents (Elt F) → (⟨S4096x1, .i32⟩ : BufTy).Contents (Elt F)),
    StableHlo.unary main_arg1 main_v15 (broadcastInDim S1x4096 ![1] bcast_S4096_S1x4096_1 : (⟨S4096, .i32⟩ : BufTy).Contents (Elt F) → (⟨S1x4096, .i32⟩ : BufTy).Contents (Elt F)),
    StableHlo.unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v16 main_v17 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_2 (constant S_ .f32 0x7F800000#32),
    StableHlo.unary main_cst_2 main_v19 (Host.negf : (⟨S_, .f32⟩ : BufTy).Contents (Elt F) → (⟨S_, .f32⟩ : BufTy).Contents (Elt F)),
    StableHlo.TRef.unary (.of main_v19 : StableHlo.TRef sig ⟨S_, .f32⟩) main_call1.v0 (broadcastInDim S4096x4096 ![] bcast_S_S4096x4096),
    StableHlo.TRef.ternary (.of main_v18 : StableHlo.TRef sig ⟨S4096x4096, .i1⟩) (.of main_v13 : StableHlo.TRef sig ⟨S4096x4096, .f32⟩) main_call1.v0 main_call1.v1 select,
    StableHlo.nullary main_cst_3 (constant S_ .f32 0xFF800000#32),
    StableHlo.binary main_v20 main_cst_3 main_v21 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_4 (constant S_ .f32 0x7F800000#32),
    StableHlo.TRef.unary (.of main_cst_4 : StableHlo.TRef sig ⟨S_, .f32⟩) main_call2.v0 (broadcastInDim S4096x4096 ![] bcast_S_S4096x4096),
    StableHlo.TRef.ternary (.of main_v18 : StableHlo.TRef sig ⟨S4096x4096, .i1⟩) main_call2.v0 (.of main_v13 : StableHlo.TRef sig ⟨S4096x4096, .f32⟩) main_call2.v1 select,
    StableHlo.nullary main_cst_5 (constant S_ .f32 0x7F800000#32),
    StableHlo.binary main_v22 main_cst_5 main_v23 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v21 main_v24 (broadcastInDim S4096x1 ![0] bcast_S4096_S4096x1_0 : (⟨S4096, .f32⟩ : BufTy).Contents (Elt F) → (⟨S4096x1, .f32⟩ : BufTy).Contents (Elt F)),
    StableHlo.unary main_v24 main_v25 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v25 main_v26 (cmpf .oeq : (⟨S4096x4096, .f32⟩ : BufTy).Contents (Elt F) → (⟨S4096x4096, .f32⟩ : BufTy).Contents (Elt F) → (⟨S4096x4096, .i1⟩ : BufTy).Contents (Elt F)),
    StableHlo.binary main_v26 main_v18 main_v27 (andi : (⟨S4096x4096, .i1⟩ : BufTy).Contents (Elt F) → (⟨S4096x4096, .i1⟩ : BufTy).Contents (Elt F) → (⟨S4096x4096, .i1⟩ : BufTy).Contents (Elt F)),
    StableHlo.unary main_v27 main_v28 (Host.reverse [1] : (⟨S4096x4096, .i1⟩ : BufTy).Contents (Elt F) → (⟨S4096x4096, .i1⟩ : BufTy).Contents (Elt F)),
    StableHlo.TRef.nullary main_call3.v0 (iotaInDim S4096x4096 32 1),
    StableHlo.TRef.nullary main_call3.c (constantI S_ 1 0#1),
    StableHlo.TRef.nullary main_call3.c_0 (constantI S_ 32 0#32),
    StableHlo.TRef.quaternary (.of main_v28 : StableHlo.TRef sig ⟨S4096x4096, .i1⟩) main_call3.v0 main_call3.c main_call3.c_0 main_call3.v1_0 (fun x y u v j => (Host.reduce2 reducer_argmax_i1_i32 x y u v reducesTo_S4096x4096_S4096_d1 h_S_ j).1),
    StableHlo.TRef.quaternary (.of main_v28 : StableHlo.TRef sig ⟨S4096x4096, .i1⟩) main_call3.v0 main_call3.c main_call3.c_0 main_call3.v1_1 (fun x y u v j => (Host.reduce2 reducer_argmax_i1_i32 x y u v reducesTo_S4096x4096_S4096_d1 h_S_ j).2),
    StableHlo.nullary main_c (constantI S_ 32 4095#32),
    StableHlo.unary main_c main_v30 (broadcastInDim S4096 ![] bcast_S_S4096 : (⟨S_, .i32⟩ : BufTy).Contents (Elt F) → (⟨S4096, .i32⟩ : BufTy).Contents (Elt F)),
    StableHlo.binary main_v30 main_v29 main_v31 (subi : (⟨S4096, .i32⟩ : BufTy).Contents (Elt F) → (⟨S4096, .i32⟩ : BufTy).Contents (Elt F) → (⟨S4096, .i32⟩ : BufTy).Contents (Elt F)),
    StableHlo.unary main_v23 main_v32 (broadcastInDim S4096x1 ![0] bcast_S4096_S4096x1_0 : (⟨S4096, .f32⟩ : BufTy).Contents (Elt F) → (⟨S4096x1, .f32⟩ : BufTy).Contents (Elt F)),
    StableHlo.unary main_v32 main_v33 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v13 main_v33 main_v34 (cmpf .oeq : (⟨S4096x4096, .f32⟩ : BufTy).Contents (Elt F) → (⟨S4096x4096, .f32⟩ : BufTy).Contents (Elt F) → (⟨S4096x4096, .i1⟩ : BufTy).Contents (Elt F)),
    StableHlo.unary main_v18 main_v35 (noti : (⟨S4096x4096, .i1⟩ : BufTy).Contents (Elt F) → (⟨S4096x4096, .i1⟩ : BufTy).Contents (Elt F)),
    StableHlo.binary main_v34 main_v35 main_v36 (andi : (⟨S4096x4096, .i1⟩ : BufTy).Contents (Elt F) → (⟨S4096x4096, .i1⟩ : BufTy).Contents (Elt F) → (⟨S4096x4096, .i1⟩ : BufTy).Contents (Elt F)),
    StableHlo.unary main_v36 main_v37 (Host.reverse [1] : (⟨S4096x4096, .i1⟩ : BufTy).Contents (Elt F) → (⟨S4096x4096, .i1⟩ : BufTy).Contents (Elt F)),
    StableHlo.TRef.nullary main_call4.v0 (iotaInDim S4096x4096 32 1),
    StableHlo.TRef.nullary main_call4.c (constantI S_ 1 0#1),
    StableHlo.TRef.nullary main_call4.c_0 (constantI S_ 32 0#32),
    StableHlo.TRef.quaternary (.of main_v37 : StableHlo.TRef sig ⟨S4096x4096, .i1⟩) main_call4.v0 main_call4.c main_call4.c_0 main_call4.v1_0 (fun x y u v j => (Host.reduce2 reducer_argmax_i1_i32 x y u v reducesTo_S4096x4096_S4096_d1 h_S_ j).1),
    StableHlo.TRef.quaternary (.of main_v37 : StableHlo.TRef sig ⟨S4096x4096, .i1⟩) main_call4.v0 main_call4.c main_call4.c_0 main_call4.v1_1 (fun x y u v j => (Host.reduce2 reducer_argmax_i1_i32 x y u v reducesTo_S4096x4096_S4096_d1 h_S_ j).2),
    StableHlo.nullary main_c_6 (constantI S_ 32 4095#32),
    StableHlo.unary main_c_6 main_v39 (broadcastInDim S4096 ![] bcast_S_S4096 : (⟨S_, .i32⟩ : BufTy).Contents (Elt F) → (⟨S4096, .i32⟩ : BufTy).Contents (Elt F)),
    StableHlo.binary main_v39 main_v38 main_v40 (subi : (⟨S4096, .i32⟩ : BufTy).Contents (Elt F) → (⟨S4096, .i32⟩ : BufTy).Contents (Elt F) → (⟨S4096, .i32⟩ : BufTy).Contents (Elt F)),
    StableHlo.nullary main_c_7 (constantI S_ 32 0#32),
    StableHlo.unary main_c_7 main_v41 (broadcastInDim S4096 ![] bcast_S_S4096 : (⟨S_, .i32⟩ : BufTy).Contents (Elt F) → (⟨S4096, .i32⟩ : BufTy).Contents (Elt F)),
    StableHlo.binary main_v31 main_v41 main_v42 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 4096#32),
    StableHlo.unary main_c_8 main_v43 (broadcastInDim S4096 ![] bcast_S_S4096 : (⟨S_, .i32⟩ : BufTy).Contents (Elt F) → (⟨S4096, .i32⟩ : BufTy).Contents (Elt F)),
    StableHlo.binary main_v31 main_v43 main_v44 (addi : (⟨S4096, .i32⟩ : BufTy).Contents (Elt F) → (⟨S4096, .i32⟩ : BufTy).Contents (Elt F) → (⟨S4096, .i32⟩ : BufTy).Contents (Elt F)),
    StableHlo.ternary main_v42 main_v44 main_v31 main_v45 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_9 (constantI S_ 32 0#32),
    StableHlo.unary main_c_9 main_v46 (broadcastInDim S4096 ![] bcast_S_S4096 : (⟨S_, .i32⟩ : BufTy).Contents (Elt F) → (⟨S4096, .i32⟩ : BufTy).Contents (Elt F)),
    StableHlo.binary main_v40 main_v46 main_v47 (cmpi .slt : (⟨S4096, .i32⟩ : BufTy).Contents (Elt F) → (⟨S4096, .i32⟩ : BufTy).Contents (Elt F) → (⟨S4096, .i1⟩ : BufTy).Contents (Elt F)),
    StableHlo.nullary main_c_10 (constantI S_ 32 4096#32),
    StableHlo.unary main_c_10 main_v48 (broadcastInDim S4096 ![] bcast_S_S4096 : (⟨S_, .i32⟩ : BufTy).Contents (Elt F) → (⟨S4096, .i32⟩ : BufTy).Contents (Elt F)),
    StableHlo.binary main_v40 main_v48 main_v49 (addi : (⟨S4096, .i32⟩ : BufTy).Contents (Elt F) → (⟨S4096, .i32⟩ : BufTy).Contents (Elt F) → (⟨S4096, .i32⟩ : BufTy).Contents (Elt F)),
    StableHlo.ternary main_v47 main_v49 main_v40 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v45 main_v51 (broadcastInDim S4096x1 ![0] bcast_S4096_S4096x1_0 : (⟨S4096, .i32⟩ : BufTy).Contents (Elt F) → (⟨S4096x1, .i32⟩ : BufTy).Contents (Elt F)),
    StableHlo.unary main_v50 main_v52 (broadcastInDim S4096x1 ![0] bcast_S4096_S4096x1_0 : (⟨S4096, .i32⟩ : BufTy).Contents (Elt F) → (⟨S4096x1, .i32⟩ : BufTy).Contents (Elt F)),
    StableHlo.binary main_v51 main_v52 main_v53 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v13 main_v53 main_v54 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_c_11 (constantI S_ 32 0#32),
    StableHlo.unary main_c_11 main_v55 (broadcastInDim S4096 ![] bcast_S_S4096 : (⟨S_, .i32⟩ : BufTy).Contents (Elt F) → (⟨S4096, .i32⟩ : BufTy).Contents (Elt F)),
    StableHlo.binary main_v40 main_v55 main_v56 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v57 (broadcastInDim S4096 ![] bcast_S_S4096 : (⟨S_, .i32⟩ : BufTy).Contents (Elt F) → (⟨S4096, .i32⟩ : BufTy).Contents (Elt F)),
    StableHlo.binary main_v40 main_v57 main_v58 (addi : (⟨S4096, .i32⟩ : BufTy).Contents (Elt F) → (⟨S4096, .i32⟩ : BufTy).Contents (Elt F) → (⟨S4096, .i32⟩ : BufTy).Contents (Elt F)),
    StableHlo.ternary main_v56 main_v58 main_v40 main_v59 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v59 main_v60 (broadcastInDim S4096x1 ![0] bcast_S4096_S4096x1_0 : (⟨S4096, .i32⟩ : BufTy).Contents (Elt F) → (⟨S4096x1, .i32⟩ : BufTy).Contents (Elt F)),
    StableHlo.binary main_arg1 main_v60 main_v61 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.unary main_arg1 main_v62 (broadcastInDim S1x4096 ![1] bcast_S4096_S1x4096_1 : (⟨S4096, .i32⟩ : BufTy).Contents (Elt F) → (⟨S1x4096, .i32⟩ : BufTy).Contents (Elt F)),
    StableHlo.unary main_arg1 main_v63 (broadcastInDim S4096x1 ![0] bcast_S4096_S4096x1_0 : (⟨S4096, .i32⟩ : BufTy).Contents (Elt F) → (⟨S4096x1, .i32⟩ : BufTy).Contents (Elt F)),
    StableHlo.unary main_v62 main_v64 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v63 main_v65 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v64 main_v65 main_v66 (cmpi .ne : (⟨S4096x4096, .i32⟩ : BufTy).Contents (Elt F) → (⟨S4096x4096, .i32⟩ : BufTy).Contents (Elt F) → (⟨S4096x4096, .i1⟩ : BufTy).Contents (Elt F)),
    StableHlo.unary main_arg1 main_v67 (broadcastInDim S1x4096 ![1] bcast_S4096_S1x4096_1 : (⟨S4096, .i32⟩ : BufTy).Contents (Elt F) → (⟨S1x4096, .i32⟩ : BufTy).Contents (Elt F)),
    StableHlo.unary main_v61 main_v68 (broadcastInDim S4096x1 ![0] bcast_S4096_S4096x1_0 : (⟨S4096, .i32⟩ : BufTy).Contents (Elt F) → (⟨S4096x1, .i32⟩ : BufTy).Contents (Elt F)),
    StableHlo.unary main_v67 main_v69 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v68 main_v70 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v69 main_v70 main_v71 (cmpi .ne : (⟨S4096x4096, .i32⟩ : BufTy).Contents (Elt F) → (⟨S4096x4096, .i32⟩ : BufTy).Contents (Elt F) → (⟨S4096x4096, .i1⟩ : BufTy).Contents (Elt F)),
    StableHlo.binary main_v66 main_v71 main_v72 (andi : (⟨S4096x4096, .i1⟩ : BufTy).Contents (Elt F) → (⟨S4096x4096, .i1⟩ : BufTy).Contents (Elt F) → (⟨S4096x4096, .i1⟩ : BufTy).Contents (Elt F)),
    StableHlo.nullary main_c_13 (constantI S_ 32 0#32),
    StableHlo.unary main_c_13 main_v73 (broadcastInDim S4096 ![] bcast_S_S4096 : (⟨S_, .i32⟩ : BufTy).Contents (Elt F) → (⟨S4096, .i32⟩ : BufTy).Contents (Elt F)),
    StableHlo.binary main_v40 main_v73 main_v74 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 4096#32),
    StableHlo.unary main_c_14 main_v75 (broadcastInDim S4096 ![] bcast_S_S4096 : (⟨S_, .i32⟩ : BufTy).Contents (Elt F) → (⟨S4096, .i32⟩ : BufTy).Contents (Elt F)),
    StableHlo.binary main_v40 main_v75 main_v76 (addi : (⟨S4096, .i32⟩ : BufTy).Contents (Elt F) → (⟨S4096, .i32⟩ : BufTy).Contents (Elt F) → (⟨S4096, .i32⟩ : BufTy).Contents (Elt F)),
    StableHlo.ternary main_v74 main_v76 main_v40 main_v77 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v77 main_v78 (broadcastInDim S4096x1 ![0] bcast_S4096_S4096x1_0 : (⟨S4096, .i32⟩ : BufTy).Contents (Elt F) → (⟨S4096x1, .i32⟩ : BufTy).Contents (Elt F)),
    StableHlo.binary main_v13 main_v78 main_v79 ((fun x i => Host.gather gather_S4096x4096_S4096x1_S4096x4096_1_0_n_n_0_1_14096 x i) : (⟨S4096x4096, .f32⟩ : BufTy).Contents (Elt F) → (⟨S4096x1, .i32⟩ : BufTy).Contents (Elt F) → (⟨S4096x4096, .f32⟩ : BufTy).Contents (Elt F)),
    StableHlo.nullary main_cst_15 (constant S_ .f32 0x7F800000#32),
    StableHlo.TRef.unary (.of main_cst_15 : StableHlo.TRef sig ⟨S_, .f32⟩) main_call5.v0 (broadcastInDim S4096x4096 ![] bcast_S_S4096x4096),
    StableHlo.TRef.ternary (.of main_v72 : StableHlo.TRef sig ⟨S4096x4096, .i1⟩) (.of main_v79 : StableHlo.TRef sig ⟨S4096x4096, .f32⟩) main_call5.v0 main_call5.v1 select,
    StableHlo.nullary main_cst_16 (constant S_ .f32 0x7F800000#32),
    StableHlo.binary main_v80 main_cst_16 main_v81 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v81 main_v82 (broadcastInDim S4096x1 ![0] bcast_S4096_S4096x1_0 : (⟨S4096, .f32⟩ : BufTy).Contents (Elt F) → (⟨S4096x1, .f32⟩ : BufTy).Contents (Elt F)),
    StableHlo.unary main_v82 main_v83 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v79 main_v83 main_v84 (cmpf .oeq : (⟨S4096x4096, .f32⟩ : BufTy).Contents (Elt F) → (⟨S4096x4096, .f32⟩ : BufTy).Contents (Elt F) → (⟨S4096x4096, .i1⟩ : BufTy).Contents (Elt F)),
    StableHlo.binary main_v84 main_v72 main_v85 (andi : (⟨S4096x4096, .i1⟩ : BufTy).Contents (Elt F) → (⟨S4096x4096, .i1⟩ : BufTy).Contents (Elt F) → (⟨S4096x4096, .i1⟩ : BufTy).Contents (Elt F)),
    StableHlo.unary main_v85 main_v86 (Host.reverse [1] : (⟨S4096x4096, .i1⟩ : BufTy).Contents (Elt F) → (⟨S4096x4096, .i1⟩ : BufTy).Contents (Elt F)),
    StableHlo.TRef.nullary main_call6.v0 (iotaInDim S4096x4096 32 1),
    StableHlo.TRef.nullary main_call6.c (constantI S_ 1 0#1),
    StableHlo.TRef.nullary main_call6.c_0 (constantI S_ 32 0#32),
    StableHlo.TRef.quaternary (.of main_v86 : StableHlo.TRef sig ⟨S4096x4096, .i1⟩) main_call6.v0 main_call6.c main_call6.c_0 main_call6.v1_0 (fun x y u v j => (Host.reduce2 reducer_argmax_i1_i32 x y u v reducesTo_S4096x4096_S4096_d1 h_S_ j).1),
    StableHlo.TRef.quaternary (.of main_v86 : StableHlo.TRef sig ⟨S4096x4096, .i1⟩) main_call6.v0 main_call6.c main_call6.c_0 main_call6.v1_1 (fun x y u v j => (Host.reduce2 reducer_argmax_i1_i32 x y u v reducesTo_S4096x4096_S4096_d1 h_S_ j).2),
    StableHlo.nullary main_c_17 (constantI S_ 32 4095#32),
    StableHlo.unary main_c_17 main_v88 (broadcastInDim S4096 ![] bcast_S_S4096 : (⟨S_, .i32⟩ : BufTy).Contents (Elt F) → (⟨S4096, .i32⟩ : BufTy).Contents (Elt F)),
    StableHlo.binary main_v88 main_v87 main_v89 (subi : (⟨S4096, .i32⟩ : BufTy).Contents (Elt F) → (⟨S4096, .i32⟩ : BufTy).Contents (Elt F) → (⟨S4096, .i32⟩ : BufTy).Contents (Elt F)),
    StableHlo.nullary main_v90 (iotaInDim S4096 32 0),
    StableHlo.nullary main_c_18 (constantI S_ 32 0#32),
    StableHlo.unary main_c_18 main_v91 (broadcastInDim S4096 ![] bcast_S_S4096 : (⟨S_, .i32⟩ : BufTy).Contents (Elt F) → (⟨S4096, .i32⟩ : BufTy).Contents (Elt F)),
    StableHlo.binary main_v90 main_v91 main_v92 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 4096#32),
    StableHlo.unary main_c_19 main_v93 (broadcastInDim S4096 ![] bcast_S_S4096 : (⟨S_, .i32⟩ : BufTy).Contents (Elt F) → (⟨S4096, .i32⟩ : BufTy).Contents (Elt F)),
    StableHlo.binary main_v90 main_v93 main_v94 (addi : (⟨S4096, .i32⟩ : BufTy).Contents (Elt F) → (⟨S4096, .i32⟩ : BufTy).Contents (Elt F) → (⟨S4096, .i32⟩ : BufTy).Contents (Elt F)),
    StableHlo.ternary main_v92 main_v94 main_v90 main_v95 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_20 (constantI S_ 32 0#32),
    StableHlo.unary main_c_20 main_v96 (broadcastInDim S4096 ![] bcast_S_S4096 : (⟨S_, .i32⟩ : BufTy).Contents (Elt F) → (⟨S4096, .i32⟩ : BufTy).Contents (Elt F)),
    StableHlo.binary main_v89 main_v96 main_v97 (cmpi .slt : (⟨S4096, .i32⟩ : BufTy).Contents (Elt F) → (⟨S4096, .i32⟩ : BufTy).Contents (Elt F) → (⟨S4096, .i1⟩ : BufTy).Contents (Elt F)),
    StableHlo.nullary main_c_21 (constantI S_ 32 4096#32),
    StableHlo.unary main_c_21 main_v98 (broadcastInDim S4096 ![] bcast_S_S4096 : (⟨S_, .i32⟩ : BufTy).Contents (Elt F) → (⟨S4096, .i32⟩ : BufTy).Contents (Elt F)),
    StableHlo.binary main_v89 main_v98 main_v99 (addi : (⟨S4096, .i32⟩ : BufTy).Contents (Elt F) → (⟨S4096, .i32⟩ : BufTy).Contents (Elt F) → (⟨S4096, .i32⟩ : BufTy).Contents (Elt F)),
    StableHlo.ternary main_v97 main_v99 main_v89 main_v100 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v95 main_v101 (broadcastInDim S4096x1 ![0] bcast_S4096_S4096x1_0 : (⟨S4096, .i32⟩ : BufTy).Contents (Elt F) → (⟨S4096x1, .i32⟩ : BufTy).Contents (Elt F)),
    StableHlo.unary main_v100 main_v102 (broadcastInDim S4096x1 ![0] bcast_S4096_S4096x1_0 : (⟨S4096, .i32⟩ : BufTy).Contents (Elt F) → (⟨S4096x1, .i32⟩ : BufTy).Contents (Elt F)),
    StableHlo.binary main_v101 main_v102 main_v103 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v13 main_v103 main_v104 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_v105 (iotaInDim S4096 32 0),
    StableHlo.nullary main_c_22 (constantI S_ 32 0#32),
    StableHlo.unary main_c_22 main_v106 (broadcastInDim S4096 ![] bcast_S_S4096 : (⟨S_, .i32⟩ : BufTy).Contents (Elt F) → (⟨S4096, .i32⟩ : BufTy).Contents (Elt F)),
    StableHlo.binary main_v105 main_v106 main_v107 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 4096#32),
    StableHlo.unary main_c_23 main_v108 (broadcastInDim S4096 ![] bcast_S_S4096 : (⟨S_, .i32⟩ : BufTy).Contents (Elt F) → (⟨S4096, .i32⟩ : BufTy).Contents (Elt F)),
    StableHlo.binary main_v105 main_v108 main_v109 (addi : (⟨S4096, .i32⟩ : BufTy).Contents (Elt F) → (⟨S4096, .i32⟩ : BufTy).Contents (Elt F) → (⟨S4096, .i32⟩ : BufTy).Contents (Elt F)),
    StableHlo.ternary main_v107 main_v109 main_v105 main_v110 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_24 (constantI S_ 32 0#32),
    StableHlo.unary main_c_24 main_v111 (broadcastInDim S4096 ![] bcast_S_S4096 : (⟨S_, .i32⟩ : BufTy).Contents (Elt F) → (⟨S4096, .i32⟩ : BufTy).Contents (Elt F)),
    StableHlo.binary main_v89 main_v111 main_v112 (cmpi .slt : (⟨S4096, .i32⟩ : BufTy).Contents (Elt F) → (⟨S4096, .i32⟩ : BufTy).Contents (Elt F) → (⟨S4096, .i1⟩ : BufTy).Contents (Elt F)),
    StableHlo.nullary main_c_25 (constantI S_ 32 4096#32),
    StableHlo.unary main_c_25 main_v113 (broadcastInDim S4096 ![] bcast_S_S4096 : (⟨S_, .i32⟩ : BufTy).Contents (Elt F) → (⟨S4096, .i32⟩ : BufTy).Contents (Elt F)),
    StableHlo.binary main_v89 main_v113 main_v114 (addi : (⟨S4096, .i32⟩ : BufTy).Contents (Elt F) → (⟨S4096, .i32⟩ : BufTy).Contents (Elt F) → (⟨S4096, .i32⟩ : BufTy).Contents (Elt F)),
    StableHlo.ternary main_v112 main_v114 main_v89 main_v115 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v110 main_v116 (broadcastInDim S4096x1 ![0] bcast_S4096_S4096x1_0 : (⟨S4096, .i32⟩ : BufTy).Contents (Elt F) → (⟨S4096x1, .i32⟩ : BufTy).Contents (Elt F)),
    StableHlo.unary main_v115 main_v117 (broadcastInDim S4096x1 ![0] bcast_S4096_S4096x1_0 : (⟨S4096, .i32⟩ : BufTy).Contents (Elt F) → (⟨S4096x1, .i32⟩ : BufTy).Contents (Elt F)),
    StableHlo.binary main_v116 main_v117 main_v118 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v79 main_v118 main_v119 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.binary main_v21 main_v23 main_v120 (subf : (⟨S4096, .f32⟩ : BufTy).Contents (Elt F) → (⟨S4096, .f32⟩ : BufTy).Contents (Elt F) → (⟨S4096, .f32⟩ : BufTy).Contents (Elt F)),
    StableHlo.nullary main_cst_26 (constant S_ .f32 0x00000000#32),
    StableHlo.unary main_cst_26 main_v121 (broadcastInDim S4096 ![] bcast_S_S4096 : (⟨S_, .f32⟩ : BufTy).Contents (Elt F) → (⟨S4096, .f32⟩ : BufTy).Contents (Elt F)),
    StableHlo.binary main_v120 main_v121 main_v122 (addf : (⟨S4096, .f32⟩ : BufTy).Contents (Elt F) → (⟨S4096, .f32⟩ : BufTy).Contents (Elt F) → (⟨S4096, .f32⟩ : BufTy).Contents (Elt F)),
    StableHlo.TRef.nullary main_call7.cst (constant S_ .f32 0x00000000#32),
    StableHlo.TRef.unary main_call7.cst main_call7.v0 (broadcastInDim S4096 ![] bcast_S_S4096),
    StableHlo.TRef.binary (.of main_v122 : StableHlo.TRef sig ⟨S4096, .f32⟩) main_call7.v0 main_call7.v1 maximumf,
    StableHlo.binary main_v23 main_v54 main_v124 (subf : (⟨S4096, .f32⟩ : BufTy).Contents (Elt F) → (⟨S4096, .f32⟩ : BufTy).Contents (Elt F) → (⟨S4096, .f32⟩ : BufTy).Contents (Elt F)),
    StableHlo.unary main_v124 main_v125 (Host.absf : (⟨S4096, .f32⟩ : BufTy).Contents (Elt F) → (⟨S4096, .f32⟩ : BufTy).Contents (Elt F)),
    StableHlo.binary main_v104 main_v119 main_v126 (subf : (⟨S4096, .f32⟩ : BufTy).Contents (Elt F) → (⟨S4096, .f32⟩ : BufTy).Contents (Elt F) → (⟨S4096, .f32⟩ : BufTy).Contents (Elt F)),
    StableHlo.unary main_v126 main_v127 (Host.absf : (⟨S4096, .f32⟩ : BufTy).Contents (Elt F) → (⟨S4096, .f32⟩ : BufTy).Contents (Elt F)),
    StableHlo.binary main_v123 main_v125 main_v128 (addf : (⟨S4096, .f32⟩ : BufTy).Contents (Elt F) → (⟨S4096, .f32⟩ : BufTy).Contents (Elt F) → (⟨S4096, .f32⟩ : BufTy).Contents (Elt F)),
    StableHlo.binary main_v128 main_v127 main_v129 (addf : (⟨S4096, .f32⟩ : BufTy).Contents (Elt F) → (⟨S4096, .f32⟩ : BufTy).Contents (Elt F) → (⟨S4096, .f32⟩ : BufTy).Contents (Elt F)),
    StableHlo.nullary main_cst_27 (constant S_ .f32 0x00000000#32),
    StableHlo.binary main_v129 main_cst_27 main_v130 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_28 (constant S_ .f32 0x45800000#32),
    StableHlo.binary main_v130 main_cst_28 main_v131 (Host.divf : (⟨S_, .f32⟩ : BufTy).Contents (Elt F) → (⟨S_, .f32⟩ : BufTy).Contents (Elt F) → (⟨S_, .f32⟩ : BufTy).Contents (Elt F)) ]

set_option maxRecDepth 4096 in
theorem part0_eq (c : Dev nD) : main_part0 (F := F) c = seq part0Ops := by
  simp only [main_part0, fn_clip.body, fn_where.body, fn_where_0.body, fn_argmax.body, seq, bind_assoc, pure_bind]
  rfl

set_option maxRecDepth 4096 in
theorem part1_eq (c : Dev nD) : main_part1 (F := F) c = seq part1Ops := by
  simp only [main_part1, fn_where.body, fn_argmax.body, seq, bind_assoc, pure_bind]
  rfl

set_option maxRecDepth 4096 in
theorem part2_eq (c : Dev nD) : main_part2 (F := F) c = seq part2Ops := by
  simp only [main_part2, fn_relu.body, seq, bind_assoc, pure_bind]

/-- The two lists in order are the three windows' lists in order. -/
theorem ops_eq : (headOps ++ tailOps : List (HloOp τ sig (Elt F))) = part0Ops ++ (part1Ops ++ part2Ops) := rfl

/-- @main is the straight line of `headOps` then `tailOps`. -/
theorem main_eq (c : Dev nD) : main (F := F) c = seq (headOps ++ tailOps) := by
  rw [ops_eq, seq_append, seq_append, ← part0_eq c, ← part1_eq c, ← part2_eq c]
  rfl

theorem head_sub : (headOps : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub ..⟩

theorem tail_sub : (tailOps : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., ternary_bufs_sub .., nullary_bufs_sub .., binary_bufs_sub .., unary_bufs_sub .., unary_bufs_sub .., binary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., unary_bufs_sub .., unary_bufs_sub .., binary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., ternary_bufs_sub .., nullary_bufs_sub .., binary_bufs_sub .., unary_bufs_sub .., unary_bufs_sub .., binary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., binary_bufs_sub .., nullary_bufs_sub .., binary_bufs_sub .., nullary_bufs_sub .., binary_bufs_sub ..⟩

/-- A property of every element of each of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  · exact h₁ x h
  · exact h₂ x h

theorem ops_sub : (headOps ++ tailOps : List (HloOp τ sig (Elt F))).Forall fun op => op.bufs ⊆ tcRefs τ sig :=
  forall_append head_sub tail_sub

end Cert.ReferenceIdeal.RefValue

end
-- ==== Proof.RefRun.lean ====
/-
  The reference program's run read back: every weakly fair execution of @main terminates, and each TensorCore buffer
  ends at the fold of `tailOps` over the fold of `headOps` over the launch contents. No operation writes either
  argument array, so both end unchanged.
-/
import proofs.«117172_j65712999629574_1_alg».proof.Proof.RefOps
import proofs.«117172_j65712999629574_1_alg».proof.Defs
import proofs.«117172_j65712999629574_1_alg».proof.Proof.Gen.Pre_finite_inputs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The fold over two lists in order is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem head_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem tail_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (headOps ++ tailOps : List (HloOp τ sig (Elt F))), op.fresh = ∅ :=
  List.forall_iff_forall_mem.mp (forall_append head_fresh tail_fresh)

/-- On every device, for any float values, from any memory with zero counters: every weakly fair execution of @main
    terminates with each TensorCore buffer at the fold of the operations after the square root over the fold of the
    operations up to it over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after (tailOps (F := F)) (after headOps (launchContents m d)) (Proc.devRef .tc b) :=
  (θ_run defs _ _).mono (fun _ h d b => (h d b).trans (by rw [after_app]))
    (run_seq scopedRefs_eq scopedSems_eq defs main (fun _ => headOps ++ tailOps) main_eq (fun _ => ops_sub) m ρ
      (fun _ => ops_fresh))

/-- A reference other than the one an operation writes is not among that operation's written buffers. -/
theorem not_writes {r y : Ref sig .tc} {op : HloOp τ sig (Elt F)} (hw : op.writes = {Proc.devRef .tc y}) (h : r ≠ y) :
    (Proc.devRef .tc r : DevRef τ sig) ∉ op.writes := by
  rw [hw]
  exact fun e => h (Proc.devRef_injective _ (Finset.mem_singleton.mp e))

theorem head_nw0 : (headOps : List (HloOp τ sig (Elt F))).Forall fun op => (Proc.devRef .tc main_arg0 : DevRef τ sig) ∉ op.writes :=
  ⟨not_writes (y := main_v0) rfl (by decide),
    not_writes (y := main_cst) rfl (by decide),
    not_writes (y := main_v1) rfl (by decide),
    not_writes (y := main_v2) rfl (by decide),
    not_writes (y := main_v3) rfl (by decide),
    not_writes (y := main_v4) rfl (by decide),
    not_writes (y := main_v5) rfl (by decide),
    not_writes (y := main_v6) rfl (by decide),
    not_writes (y := main_v7) rfl (by decide),
    not_writes (y := main_v8) rfl (by decide),
    not_writes (y := main_cst_0) rfl (by decide),
    not_writes (y := main_v9) rfl (by decide),
    not_writes (y := main_v10) rfl (by decide),
    not_writes (y := main_v11) rfl (by decide),
    not_writes (y := main_cst_1) rfl (by decide),
    not_writes (y := main_call0.v0.ref) rfl (by decide),
    not_writes (y := main_call0.v1.ref) rfl (by decide),
    not_writes (y := main_call0.v2.ref) rfl (by decide),
    not_writes (y := main_v13) rfl (by decide)⟩

theorem head_nw1 : (headOps : List (HloOp τ sig (Elt F))).Forall fun op => (Proc.devRef .tc main_arg1 : DevRef τ sig) ∉ op.writes :=
  ⟨not_writes (y := main_v0) rfl (by decide),
    not_writes (y := main_cst) rfl (by decide),
    not_writes (y := main_v1) rfl (by decide),
    not_writes (y := main_v2) rfl (by decide),
    not_writes (y := main_v3) rfl (by decide),
    not_writes (y := main_v4) rfl (by decide),
    not_writes (y := main_v5) rfl (by decide),
    not_writes (y := main_v6) rfl (by decide),
    not_writes (y := main_v7) rfl (by decide),
    not_writes (y := main_v8) rfl (by decide),
    not_writes (y := main_cst_0) rfl (by decide),
    not_writes (y := main_v9) rfl (by decide),
    not_writes (y := main_v10) rfl (by decide),
    not_writes (y := main_v11) rfl (by decide),
    not_writes (y := main_cst_1) rfl (by decide),
    not_writes (y := main_call0.v0.ref) rfl (by decide),
    not_writes (y := main_call0.v1.ref) rfl (by decide),
    not_writes (y := main_call0.v2.ref) rfl (by decide),
    not_writes (y := main_v13) rfl (by decide)⟩

theorem tail_nw0 : (tailOps : List (HloOp τ sig (Elt F))).Forall fun op => (Proc.devRef .tc main_arg0 : DevRef τ sig) ∉ op.writes :=
  ⟨not_writes (y := main_v14) rfl (by decide),
    not_writes (y := main_v15) rfl (by decide),
    not_writes (y := main_v16) rfl (by decide),
    not_writes (y := main_v17) rfl (by decide),
    not_writes (y := main_v18) rfl (by decide),
    not_writes (y := main_cst_2) rfl (by decide),
    not_writes (y := main_v19) rfl (by decide),
    not_writes (y := main_call1.v0.ref) rfl (by decide),
    not_writes (y := main_call1.v1.ref) rfl (by decide),
    not_writes (y := main_cst_3) rfl (by decide),
    not_writes (y := main_v21) rfl (by decide),
    not_writes (y := main_cst_4) rfl (by decide),
    not_writes (y := main_call2.v0.ref) rfl (by decide),
    not_writes (y := main_call2.v1.ref) rfl (by decide),
    not_writes (y := main_cst_5) rfl (by decide),
    not_writes (y := main_v23) rfl (by decide),
    not_writes (y := main_v24) rfl (by decide),
    not_writes (y := main_v25) rfl (by decide),
    not_writes (y := main_v26) rfl (by decide),
    not_writes (y := main_v27) rfl (by decide),
    not_writes (y := main_v28) rfl (by decide),
    not_writes (y := main_call3.v0.ref) rfl (by decide),
    not_writes (y := main_call3.c.ref) rfl (by decide),
    not_writes (y := main_call3.c_0.ref) rfl (by decide),
    not_writes (y := main_call3.v1_0.ref) rfl (by decide),
    not_writes (y := main_call3.v1_1.ref) rfl (by decide),
    not_writes (y := main_c) rfl (by decide),
    not_writes (y := main_v30) rfl (by decide),
    not_writes (y := main_v31) rfl (by decide),
    not_writes (y := main_v32) rfl (by decide),
    not_writes (y := main_v33) rfl (by decide),
    not_writes (y := main_v34) rfl (by decide),
    not_writes (y := main_v35) rfl (by decide),
    not_writes (y := main_v36) rfl (by decide),
    not_writes (y := main_v37) rfl (by decide),
    not_writes (y := main_call4.v0.ref) rfl (by decide),
    not_writes (y := main_call4.c.ref) rfl (by decide),
    not_writes (y := main_call4.c_0.ref) rfl (by decide),
    not_writes (y := main_call4.v1_0.ref) rfl (by decide),
    not_writes (y := main_call4.v1_1.ref) rfl (by decide),
    not_writes (y := main_c_6) rfl (by decide),
    not_writes (y := main_v39) rfl (by decide),
    not_writes (y := main_v40) rfl (by decide),
    not_writes (y := main_c_7) rfl (by decide),
    not_writes (y := main_v41) rfl (by decide),
    not_writes (y := main_v42) rfl (by decide),
    not_writes (y := main_c_8) rfl (by decide),
    not_writes (y := main_v43) rfl (by decide),
    not_writes (y := main_v44) rfl (by decide),
    not_writes (y := main_v45) rfl (by decide),
    not_writes (y := main_c_9) rfl (by decide),
    not_writes (y := main_v46) rfl (by decide),
    not_writes (y := main_v47) rfl (by decide),
    not_writes (y := main_c_10) rfl (by decide),
    not_writes (y := main_v48) rfl (by decide),
    not_writes (y := main_v49) rfl (by decide),
    not_writes (y := main_v50) rfl (by decide),
    not_writes (y := main_v51) rfl (by decide),
    not_writes (y := main_v52) rfl (by decide),
    not_writes (y := main_v53) rfl (by decide),
    not_writes (y := main_v54) rfl (by decide),
    not_writes (y := main_c_11) rfl (by decide),
    not_writes (y := main_v55) rfl (by decide),
    not_writes (y := main_v56) rfl (by decide),
    not_writes (y := main_c_12) rfl (by decide),
    not_writes (y := main_v57) rfl (by decide),
    not_writes (y := main_v58) rfl (by decide),
    not_writes (y := main_v59) rfl (by decide),
    not_writes (y := main_v60) rfl (by decide),
    not_writes (y := main_v61) rfl (by decide),
    not_writes (y := main_v62) rfl (by decide),
    not_writes (y := main_v63) rfl (by decide),
    not_writes (y := main_v64) rfl (by decide),
    not_writes (y := main_v65) rfl (by decide),
    not_writes (y := main_v66) rfl (by decide),
    not_writes (y := main_v67) rfl (by decide),
    not_writes (y := main_v68) rfl (by decide),
    not_writes (y := main_v69) rfl (by decide),
    not_writes (y := main_v70) rfl (by decide),
    not_writes (y := main_v71) rfl (by decide),
    not_writes (y := main_v72) rfl (by decide),
    not_writes (y := main_c_13) rfl (by decide),
    not_writes (y := main_v73) rfl (by decide),
    not_writes (y := main_v74) rfl (by decide),
    not_writes (y := main_c_14) rfl (by decide),
    not_writes (y := main_v75) rfl (by decide),
    not_writes (y := main_v76) rfl (by decide),
    not_writes (y := main_v77) rfl (by decide),
    not_writes (y := main_v78) rfl (by decide),
    not_writes (y := main_v79) rfl (by decide),
    not_writes (y := main_cst_15) rfl (by decide),
    not_writes (y := main_call5.v0.ref) rfl (by decide),
    not_writes (y := main_call5.v1.ref) rfl (by decide),
    not_writes (y := main_cst_16) rfl (by decide),
    not_writes (y := main_v81) rfl (by decide),
    not_writes (y := main_v82) rfl (by decide),
    not_writes (y := main_v83) rfl (by decide),
    not_writes (y := main_v84) rfl (by decide),
    not_writes (y := main_v85) rfl (by decide),
    not_writes (y := main_v86) rfl (by decide),
    not_writes (y := main_call6.v0.ref) rfl (by decide),
    not_writes (y := main_call6.c.ref) rfl (by decide),
    not_writes (y := main_call6.c_0.ref) rfl (by decide),
    not_writes (y := main_call6.v1_0.ref) rfl (by decide),
    not_writes (y := main_call6.v1_1.ref) rfl (by decide),
    not_writes (y := main_c_17) rfl (by decide),
    not_writes (y := main_v88) rfl (by decide),
    not_writes (y := main_v89) rfl (by decide),
    not_writes (y := main_v90) rfl (by decide),
    not_writes (y := main_c_18) rfl (by decide),
    not_writes (y := main_v91) rfl (by decide),
    not_writes (y := main_v92) rfl (by decide),
    not_writes (y := main_c_19) rfl (by decide),
    not_writes (y := main_v93) rfl (by decide),
    not_writes (y := main_v94) rfl (by decide),
    not_writes (y := main_v95) rfl (by decide),
    not_writes (y := main_c_20) rfl (by decide),
    not_writes (y := main_v96) rfl (by decide),
    not_writes (y := main_v97) rfl (by decide),
    not_writes (y := main_c_21) rfl (by decide),
    not_writes (y := main_v98) rfl (by decide),
    not_writes (y := main_v99) rfl (by decide),
    not_writes (y := main_v100) rfl (by decide),
    not_writes (y := main_v101) rfl (by decide),
    not_writes (y := main_v102) rfl (by decide),
    not_writes (y := main_v103) rfl (by decide),
    not_writes (y := main_v104) rfl (by decide),
    not_writes (y := main_v105) rfl (by decide),
    not_writes (y := main_c_22) rfl (by decide),
    not_writes (y := main_v106) rfl (by decide),
    not_writes (y := main_v107) rfl (by decide),
    not_writes (y := main_c_23) rfl (by decide),
    not_writes (y := main_v108) rfl (by decide),
    not_writes (y := main_v109) rfl (by decide),
    not_writes (y := main_v110) rfl (by decide),
    not_writes (y := main_c_24) rfl (by decide),
    not_writes (y := main_v111) rfl (by decide),
    not_writes (y := main_v112) rfl (by decide),
    not_writes (y := main_c_25) rfl (by decide),
    not_writes (y := main_v113) rfl (by decide),
    not_writes (y := main_v114) rfl (by decide),
    not_writes (y := main_v115) rfl (by decide),
    not_writes (y := main_v116) rfl (by decide),
    not_writes (y := main_v117) rfl (by decide),
    not_writes (y := main_v118) rfl (by decide),
    not_writes (y := main_v119) rfl (by decide),
    not_writes (y := main_v120) rfl (by decide),
    not_writes (y := main_cst_26) rfl (by decide),
    not_writes (y := main_v121) rfl (by decide),
    not_writes (y := main_v122) rfl (by decide),
    not_writes (y := main_call7.cst.ref) rfl (by decide),
    not_writes (y := main_call7.v0.ref) rfl (by decide),
    not_writes (y := main_call7.v1.ref) rfl (by decide),
    not_writes (y := main_v124) rfl (by decide),
    not_writes (y := main_v125) rfl (by decide),
    not_writes (y := main_v126) rfl (by decide),
    not_writes (y := main_v127) rfl (by decide),
    not_writes (y := main_v128) rfl (by decide),
    not_writes (y := main_v129) rfl (by decide),
    not_writes (y := main_cst_27) rfl (by decide),
    not_writes (y := main_v130) rfl (by decide),
    not_writes (y := main_cst_28) rfl (by decide),
    not_writes (y := main_v131) rfl (by decide)⟩

theorem tail_nw1 : (tailOps : List (HloOp τ sig (Elt F))).Forall fun op => (Proc.devRef .tc main_arg1 : DevRef τ sig) ∉ op.writes :=
  ⟨not_writes (y := main_v14) rfl (by decide),
    not_writes (y := main_v15) rfl (by decide),
    not_writes (y := main_v16) rfl (by decide),
    not_writes (y := main_v17) rfl (by decide),
    not_writes (y := main_v18) rfl (by decide),
    not_writes (y := main_cst_2) rfl (by decide),
    not_writes (y := main_v19) rfl (by decide),
    not_writes (y := main_call1.v0.ref) rfl (by decide),
    not_writes (y := main_call1.v1.ref) rfl (by decide),
    not_writes (y := main_cst_3) rfl (by decide),
    not_writes (y := main_v21) rfl (by decide),
    not_writes (y := main_cst_4) rfl (by decide),
    not_writes (y := main_call2.v0.ref) rfl (by decide),
    not_writes (y := main_call2.v1.ref) rfl (by decide),
    not_writes (y := main_cst_5) rfl (by decide),
    not_writes (y := main_v23) rfl (by decide),
    not_writes (y := main_v24) rfl (by decide),
    not_writes (y := main_v25) rfl (by decide),
    not_writes (y := main_v26) rfl (by decide),
    not_writes (y := main_v27) rfl (by decide),
    not_writes (y := main_v28) rfl (by decide),
    not_writes (y := main_call3.v0.ref) rfl (by decide),
    not_writes (y := main_call3.c.ref) rfl (by decide),
    not_writes (y := main_call3.c_0.ref) rfl (by decide),
    not_writes (y := main_call3.v1_0.ref) rfl (by decide),
    not_writes (y := main_call3.v1_1.ref) rfl (by decide),
    not_writes (y := main_c) rfl (by decide),
    not_writes (y := main_v30) rfl (by decide),
    not_writes (y := main_v31) rfl (by decide),
    not_writes (y := main_v32) rfl (by decide),
    not_writes (y := main_v33) rfl (by decide),
    not_writes (y := main_v34) rfl (by decide),
    not_writes (y := main_v35) rfl (by decide),
    not_writes (y := main_v36) rfl (by decide),
    not_writes (y := main_v37) rfl (by decide),
    not_writes (y := main_call4.v0.ref) rfl (by decide),
    not_writes (y := main_call4.c.ref) rfl (by decide),
    not_writes (y := main_call4.c_0.ref) rfl (by decide),
    not_writes (y := main_call4.v1_0.ref) rfl (by decide),
    not_writes (y := main_call4.v1_1.ref) rfl (by decide),
    not_writes (y := main_c_6) rfl (by decide),
    not_writes (y := main_v39) rfl (by decide),
    not_writes (y := main_v40) rfl (by decide),
    not_writes (y := main_c_7) rfl (by decide),
    not_writes (y := main_v41) rfl (by decide),
    not_writes (y := main_v42) rfl (by decide),
    not_writes (y := main_c_8) rfl (by decide),
    not_writes (y := main_v43) rfl (by decide),
    not_writes (y := main_v44) rfl (by decide),
    not_writes (y := main_v45) rfl (by decide),
    not_writes (y := main_c_9) rfl (by decide),
    not_writes (y := main_v46) rfl (by decide),
    not_writes (y := main_v47) rfl (by decide),
    not_writes (y := main_c_10) rfl (by decide),
    not_writes (y := main_v48) rfl (by decide),
    not_writes (y := main_v49) rfl (by decide),
    not_writes (y := main_v50) rfl (by decide),
    not_writes (y := main_v51) rfl (by decide),
    not_writes (y := main_v52) rfl (by decide),
    not_writes (y := main_v53) rfl (by decide),
    not_writes (y := main_v54) rfl (by decide),
    not_writes (y := main_c_11) rfl (by decide),
    not_writes (y := main_v55) rfl (by decide),
    not_writes (y := main_v56) rfl (by decide),
    not_writes (y := main_c_12) rfl (by decide),
    not_writes (y := main_v57) rfl (by decide),
    not_writes (y := main_v58) rfl (by decide),
    not_writes (y := main_v59) rfl (by decide),
    not_writes (y := main_v60) rfl (by decide),
    not_writes (y := main_v61) rfl (by decide),
    not_writes (y := main_v62) rfl (by decide),
    not_writes (y := main_v63) rfl (by decide),
    not_writes (y := main_v64) rfl (by decide),
    not_writes (y := main_v65) rfl (by decide),
    not_writes (y := main_v66) rfl (by decide),
    not_writes (y := main_v67) rfl (by decide),
    not_writes (y := main_v68) rfl (by decide),
    not_writes (y := main_v69) rfl (by decide),
    not_writes (y := main_v70) rfl (by decide),
    not_writes (y := main_v71) rfl (by decide),
    not_writes (y := main_v72) rfl (by decide),
    not_writes (y := main_c_13) rfl (by decide),
    not_writes (y := main_v73) rfl (by decide),
    not_writes (y := main_v74) rfl (by decide),
    not_writes (y := main_c_14) rfl (by decide),
    not_writes (y := main_v75) rfl (by decide),
    not_writes (y := main_v76) rfl (by decide),
    not_writes (y := main_v77) rfl (by decide),
    not_writes (y := main_v78) rfl (by decide),
    not_writes (y := main_v79) rfl (by decide),
    not_writes (y := main_cst_15) rfl (by decide),
    not_writes (y := main_call5.v0.ref) rfl (by decide),
    not_writes (y := main_call5.v1.ref) rfl (by decide),
    not_writes (y := main_cst_16) rfl (by decide),
    not_writes (y := main_v81) rfl (by decide),
    not_writes (y := main_v82) rfl (by decide),
    not_writes (y := main_v83) rfl (by decide),
    not_writes (y := main_v84) rfl (by decide),
    not_writes (y := main_v85) rfl (by decide),
    not_writes (y := main_v86) rfl (by decide),
    not_writes (y := main_call6.v0.ref) rfl (by decide),
    not_writes (y := main_call6.c.ref) rfl (by decide),
    not_writes (y := main_call6.c_0.ref) rfl (by decide),
    not_writes (y := main_call6.v1_0.ref) rfl (by decide),
    not_writes (y := main_call6.v1_1.ref) rfl (by decide),
    not_writes (y := main_c_17) rfl (by decide),
    not_writes (y := main_v88) rfl (by decide),
    not_writes (y := main_v89) rfl (by decide),
    not_writes (y := main_v90) rfl (by decide),
    not_writes (y := main_c_18) rfl (by decide),
    not_writes (y := main_v91) rfl (by decide),
    not_writes (y := main_v92) rfl (by decide),
    not_writes (y := main_c_19) rfl (by decide),
    not_writes (y := main_v93) rfl (by decide),
    not_writes (y := main_v94) rfl (by decide),
    not_writes (y := main_v95) rfl (by decide),
    not_writes (y := main_c_20) rfl (by decide),
    not_writes (y := main_v96) rfl (by decide),
    not_writes (y := main_v97) rfl (by decide),
    not_writes (y := main_c_21) rfl (by decide),
    not_writes (y := main_v98) rfl (by decide),
    not_writes (y := main_v99) rfl (by decide),
    not_writes (y := main_v100) rfl (by decide),
    not_writes (y := main_v101) rfl (by decide),
    not_writes (y := main_v102) rfl (by decide),
    not_writes (y := main_v103) rfl (by decide),
    not_writes (y := main_v104) rfl (by decide),
    not_writes (y := main_v105) rfl (by decide),
    not_writes (y := main_c_22) rfl (by decide),
    not_writes (y := main_v106) rfl (by decide),
    not_writes (y := main_v107) rfl (by decide),
    not_writes (y := main_c_23) rfl (by decide),
    not_writes (y := main_v108) rfl (by decide),
    not_writes (y := main_v109) rfl (by decide),
    not_writes (y := main_v110) rfl (by decide),
    not_writes (y := main_c_24) rfl (by decide),
    not_writes (y := main_v111) rfl (by decide),
    not_writes (y := main_v112) rfl (by decide),
    not_writes (y := main_c_25) rfl (by decide),
    not_writes (y := main_v113) rfl (by decide),
    not_writes (y := main_v114) rfl (by decide),
    not_writes (y := main_v115) rfl (by decide),
    not_writes (y := main_v116) rfl (by decide),
    not_writes (y := main_v117) rfl (by decide),
    not_writes (y := main_v118) rfl (by decide),
    not_writes (y := main_v119) rfl (by decide),
    not_writes (y := main_v120) rfl (by decide),
    not_writes (y := main_cst_26) rfl (by decide),
    not_writes (y := main_v121) rfl (by decide),
    not_writes (y := main_v122) rfl (by decide),
    not_writes (y := main_call7.cst.ref) rfl (by decide),
    not_writes (y := main_call7.v0.ref) rfl (by decide),
    not_writes (y := main_call7.v1.ref) rfl (by decide),
    not_writes (y := main_v124) rfl (by decide),
    not_writes (y := main_v125) rfl (by decide),
    not_writes (y := main_v126) rfl (by decide),
    not_writes (y := main_v127) rfl (by decide),
    not_writes (y := main_v128) rfl (by decide),
    not_writes (y := main_v129) rfl (by decide),
    not_writes (y := main_cst_27) rfl (by decide),
    not_writes (y := main_v130) rfl (by decide),
    not_writes (y := main_cst_28) rfl (by decide),
    not_writes (y := main_v131) rfl (by decide)⟩

/-- No operation up to the square root writes the first argument array. -/
theorem head_arg0 (V : Valuation τ sig (Elt F)) :
    after (headOps (F := F)) V (Proc.devRef .tc main_arg0) = V (Proc.devRef .tc main_arg0) :=
  after_of_forall_not_mem _ V (List.forall_iff_forall_mem.mp head_nw0)

/-- No operation up to the square root writes the second argument array. -/
theorem head_arg1 (V : Valuation τ sig (Elt F)) :
    after (headOps (F := F)) V (Proc.devRef .tc main_arg1) = V (Proc.devRef .tc main_arg1) :=
  after_of_forall_not_mem _ V (List.forall_iff_forall_mem.mp head_nw1)

/-- No operation after the square root writes the first argument array. -/
theorem tail_arg0 (V : Valuation τ sig (Elt F)) :
    after (tailOps (F := F)) V (Proc.devRef .tc main_arg0) = V (Proc.devRef .tc main_arg0) :=
  after_of_forall_not_mem _ V (List.forall_iff_forall_mem.mp tail_nw0)

/-- No operation after the square root writes the second argument array. -/
theorem tail_arg1 (V : Valuation τ sig (Elt F)) :
    after (tailOps (F := F)) V (Proc.devRef .tc main_arg1) = V (Proc.devRef .tc main_arg1) :=
  after_of_forall_not_mem _ V (List.forall_iff_forall_mem.mp tail_nw1)

/-- The reference runs, and both argument arrays end unchanged. -/
theorem frame_ri : Cert.frame_ReferenceIdeal := fun m g _ =>
  (θ_run defs _ _).mono (fun _ h c =>
      ⟨(h c main_arg0).trans ((tail_arg0 _).trans (head_arg0 _)),
       (h c main_arg1).trans ((tail_arg1 _).trans (head_arg1 _))⟩)
    (run (F := Ideal) m g)

end Cert.ReferenceIdeal.RefValue

end
-- ==== Proof.RefDist.lean ====
/-
  The reference program's distance matrix. The operations up to and including the square root compute, from the
  matrix x of 4096 rows and 2048 columns, at (i, j):
      sqrt (max ε ((Σ_k x(i,k)·x(i,k) + Σ_k x(j,k)·x(j,k)) − 2 · Σ_k x(i,k)·x(j,k)))
  — the elementwise square summed over the columns from the zero word (0 + Σ = Σ), the row sums laid down the rows and
  along the columns and added, the product of the matrix with its transpose (contracting the columns of the one against
  the rows of the other: Σ_k x(i,k)·x(j,k)), the word 0x40000000 times it, the difference, the maximum with the word
  0x2B8CBCCC (the clamp's change of format is the identity), the square root. That is `Cert.PairDist.dist x`.
-/
import proofs.«117172_j65712999629574_1_alg».proof.Proof.RefRun
import proofs.«117172_j65712999629574_1_alg».proof.Proof.DistSpec
import Idealize.ShloMosaic.Lib.StackMember
import Idealize.ShloMosaic.Lib.IdealHost
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.PairDist
open scoped BigOperators

/-- The row sums of the squares: the host sum over the columns of the elementwise square, from the zero word. -/
def rowSums (x : FVec Ideal S4096x2048 .f32) : FVec Ideal S4096 .f32 :=
  Host.reduceAdd (F := Ideal) (mulf x x) (constant (F := Ideal) S_ .f32 0x00000000#32) reducesTo_S4096x2048_S4096_d1 h_S_

/-- The distance matrix as the operations up to the square root compute it from the matrix: the row sums laid down
    the rows and along the columns and added, twice the product of the matrix with its transpose subtracted, the
    clamp from below by the word 0x2B8CBCCC, the square root. -/
def headTerm (x : FVec Ideal S4096x2048 .f32) : FVec Ideal S4096x4096 .f32 :=
  Host.sqrt
    (maximumf (broadcastInDim S4096x4096 ![] bcast_S_S4096x4096 (constant (F := Ideal) S_ .f32 0x2B8CBCCC#32))
      (subf
        (addf
          (broadcastInDim S4096x4096 ![0, 1] bcast_S4096x1_S4096x4096_0_1
            (broadcastInDim S4096x1 ![0] bcast_S4096_S4096x1_0 (rowSums x)))
          (broadcastInDim S4096x4096 ![0, 1] bcast_S1x4096_S4096x4096_0_1
            (broadcastInDim S1x4096 ![1] bcast_S4096_S1x4096_1 (rowSums x))))
        (mulf (broadcastInDim S4096x4096 ![] bcast_S_S4096x4096 (constant (F := Ideal) S_ .f32 0x40000000#32))
          (Host.dotGeneral dot_S4096x2048_S2048x4096_S4096x4096_1_0_0_1_n_n none x
            (transpose S2048x4096 [1, 0] x transposes_S4096x2048_S2048x4096_1_0)))))

/-- The fold of the operations up to the square root, read at the square root's result, is that term of the
    first argument array. -/
theorem head_v13 (V : Valuation τ sig (Elt Ideal)) :
    after (headOps (F := Ideal)) V (Proc.devRef .tc main_v13) = headTerm (V (Proc.devRef .tc main_arg0)) := by
  after_results_simp
  rfl

/-- A row sum of the squares is the squared norm of the row. -/
theorem rowSums_apply (x : FVec Ideal S4096x2048 .f32) (i : Fin 4096) : rowSums x (ix1 i) = sqn x i := by
  have h : S4096x2048.Reduces [1] S4096 := by decide
  show Ideal.hostReduceAdd reducesTo_S4096x2048_S4096_d1 (mulf x x) (Ideal.ofBits .f32 0x00000000#32) (ix1 i) = _
  rw [Ideal.hostReduceAdd_single reducesTo_S4096x2048_S4096_d1 h, Ideal.ofBits_zero_f32, zero_add]
  refine Finset.sum_congr rfl fun k _ => ?_
  have e : h.lift (ix1 i) k = ix2 i k := funext fun a => Fin.ext (match a with | ⟨0, _⟩ => rfl | ⟨1, _⟩ => rfl)
  show x (h.lift (ix1 i) k) * x (h.lift (ix1 i) k) = x (ix2 i k) * x (ix2 i k)
  rw [e]
  rfl

/-- A vector laid down the rows of a square matrix (first as one column, then along the columns) reads, at
    (i, j), its entry i. -/
theorem bcast_col_apply (r : FVec Ideal S4096 .f32) (i j : Fin 4096) :
    broadcastInDim S4096x4096 ![0, 1] bcast_S4096x1_S4096x4096_0_1
      (broadcastInDim S4096x1 ![0] bcast_S4096_S4096x1_0 r) (ix2 i j) = r (ix1 i) := by
  rw [broadcastInDim_apply ![0, 1] bcast_S4096x1_S4096x4096_0_1 _ (ix2 i j) (ix2 i (0 : Fin 1))
        (fun a => match a with | ⟨0, _⟩ => rfl | ⟨1, _⟩ => rfl),
      broadcastInDim_apply ![0] bcast_S4096_S4096x1_0 r (ix2 i (0 : Fin 1)) (ix1 i)
        (fun a => match a with | ⟨0, _⟩ => rfl)]

/-- A vector laid along the columns of a square matrix (first as one row, then down the rows) reads, at (i, j),
    its entry j. -/
theorem bcast_row_apply (r : FVec Ideal S4096 .f32) (i j : Fin 4096) :
    broadcastInDim S4096x4096 ![0, 1] bcast_S1x4096_S4096x4096_0_1
      (broadcastInDim S1x4096 ![1] bcast_S4096_S1x4096_1 r) (ix2 i j) = r (ix1 j) := by
  rw [broadcastInDim_apply ![0, 1] bcast_S1x4096_S4096x4096_0_1 _ (ix2 i j) (ix2 (0 : Fin 1) j)
        (fun a => match a with | ⟨0, _⟩ => rfl | ⟨1, _⟩ => rfl),
      broadcastInDim_apply ![1] bcast_S4096_S1x4096_1 r (ix2 (0 : Fin 1) j) (ix1 j)
        (fun a => match a with | ⟨0, _⟩ => rfl)]

/-- The product of the matrix with its transpose reads, at (i, j), the inner product of rows i and j. -/
theorem gram_apply (x : FVec Ideal S4096x2048 .f32) (i j : Fin 4096) :
    Host.dotGeneral dot_S4096x2048_S2048x4096_S4096x4096_1_0_0_1_n_n none x
      (transpose S2048x4096 [1, 0] x transposes_S4096x2048_S2048x4096_1_0) (ix2 i j) = dot x i j := by
  show Host.dotGeneral (DotDims.plain 4096 2048 4096) none x
      (transpose S2048x4096 [1, 0] x transposes_S4096x2048_S2048x4096_1_0) (ix2 i j) = _
  rw [StackMember.dotGeneral_plain_apply]
  refine Finset.sum_congr rfl fun k _ => ?_
  rw [transpose_ix2_apply]

/-- The term at an index is the distance of the two rows. -/
theorem headTerm_apply (x : FVec Ideal S4096x2048 .f32) (i j : Fin 4096) : headTerm x (ix2 i j) = distAt x i j := by
  show Ideal.sqrt (max (broadcastInDim S4096x4096 ![] bcast_S_S4096x4096 (constant (F := Ideal) S_ .f32 0x2B8CBCCC#32) (ix2 i j))
      ((broadcastInDim S4096x4096 ![0, 1] bcast_S4096x1_S4096x4096_0_1
            (broadcastInDim S4096x1 ![0] bcast_S4096_S4096x1_0 (rowSums x)) (ix2 i j)
          + broadcastInDim S4096x4096 ![0, 1] bcast_S1x4096_S4096x4096_0_1
            (broadcastInDim S1x4096 ![1] bcast_S4096_S1x4096_1 (rowSums x)) (ix2 i j))
        - broadcastInDim S4096x4096 ![] bcast_S_S4096x4096 (constant (F := Ideal) S_ .f32 0x40000000#32) (ix2 i j)
          * Host.dotGeneral dot_S4096x2048_S2048x4096_S4096x4096_1_0_0_1_n_n none x
              (transpose S2048x4096 [1, 0] x transposes_S4096x2048_S2048x4096_1_0) (ix2 i j))) = _
  rw [bcast_col_apply, bcast_row_apply, rowSums_apply, rowSums_apply, gram_apply,
    broadcastInDim_scalar_apply, broadcastInDim_scalar_apply]
  rfl

/-- The fold of the operations up to the square root, read at the square root's result, is the matrix of the
    pairwise distances of the rows of the first argument array. -/
theorem head_dist (V : Valuation τ sig (Elt Ideal)) :
    (after (headOps (F := Ideal)) V (Proc.devRef .tc main_v13) : Cert.PairDist.SD.Idx → EReal)
      = Cert.PairDist.dist (V (Proc.devRef .tc main_arg0)) := by
  rw [head_v13]
  funext idx
  rw [eq_ix2 idx]
  exact headTerm_apply _ _ _

end Cert.ReferenceIdeal.RefValue

end
-- ==== Proof.TailEq.lean ====
/-
  The operations after the distance matrix compute the same scalar in both programs.

  Both programs apply the same 163 host operations to the distance matrix and the label vector: the mask of equal
  labels, the hardest positive and the hardest negative of each row with their positions, the gathers at those
  positions, the hinge and the mean. The two lists differ only in the names of their buffers and in each program's own
  copies of the shapes, the shape relations, the arg-max reducer and the gather records, which are the same objects.
  So if the two valuations agree on the distance matrix and on the labels, the two folds agree on the final scalar:
  each fold is evaluated to one term in its two inputs, and the two terms are the same.
-/
import proofs.«117172_j65712999629574_1_alg».proof.Proof.Gen.KernelIdeal.Launch
import proofs.«117172_j65712999629574_1_alg».proof.Proof.RefOps
import proofs.«117172_j65712999629574_1_alg».proof.Proof.DistSpec
import Idealize.ShloMosaic.Lib.StableHlo.Run

noncomputable section

namespace Cert.Proof.TailEq

open Idealize.ShloMosaic Idealize.ShloMosaic.TcCoe Idealize.SL.Sem Idealize.ShloMosaic.StableHlo
open Cert.KernelIdeal.Gen (hostOps1 hostOps1_1 hostOps1_2 hostOps1_3 hostOps1_4 hostOps1_5 hostOps1_6 hostOps1_7 hostOps1_8 hostOps1_9 hostOps1_10 hostOps1_11 hostOps1_12 hostOps1_13 hostOps1_14)

/-- The two programs' copies of the arg-max reducer and of the three gather records are the same. -/
theorem reducer_eq : Cert.KernelIdeal.reducer_argmax_i1_i32 = Cert.ReferenceIdeal.reducer_argmax_i1_i32 := rfl
theorem gather2_eq : (Cert.KernelIdeal.gather_S4096x4096_S4096x2_S4096_n_01_n_n_01_1_11 : GatherDims Cert.KernelIdeal.S4096x4096 Cert.KernelIdeal.S4096x2 Cert.KernelIdeal.S4096)
    = Cert.ReferenceIdeal.gather_S4096x4096_S4096x2_S4096_n_01_n_n_01_1_11 := rfl
theorem gather1_eq : (Cert.KernelIdeal.gather_S4096_S4096x1_S4096_n_0_n_n_0_1_1 : GatherDims Cert.KernelIdeal.S4096 Cert.KernelIdeal.S4096x1 Cert.KernelIdeal.S4096)
    = Cert.ReferenceIdeal.gather_S4096_S4096x1_S4096_n_0_n_n_0_1_1 := rfl
theorem gatherRow_eq : (Cert.KernelIdeal.gather_S4096x4096_S4096x1_S4096x4096_1_0_n_n_0_1_14096 : GatherDims Cert.KernelIdeal.S4096x4096 Cert.KernelIdeal.S4096x1 Cert.KernelIdeal.S4096x4096)
    = Cert.ReferenceIdeal.gather_S4096x4096_S4096x1_S4096x4096_1_0_n_n_0_1_14096 := rfl

/-- Two arrays side by side along an axis, as a function of the two arrays (the side condition is on the shapes alone). -/
def cat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

theorem concatenate_two {α : Type} (t : Shape) (ax : Fin t.rank) (s1 s2 : Shape) (h : Shape.Concatenates [s1, s2] t ax)
    (a : s1.Idx → α) (b : s2.Idx → α) : concatenate t ax [⟨s1, a⟩, ⟨s2, b⟩] h = cat2 t ax s1 s2 h a b := rfl

set_option maxHeartbeats 40000000 in
/-- THE TAIL: from valuations that agree on the distance matrix and on the labels, the kernel program's host operations
    after its kernel and the reference's operations after its square root end with the same final scalar. -/
theorem tail_eq (WK : Valuation Cert.KernelIdeal.τ Cert.KernelIdeal.sig (Elt Ideal)) (WR : Valuation Cert.ReferenceIdeal.τ Cert.ReferenceIdeal.sig (Elt Ideal))
    (hD : (WK (Proc.devRef .tc Cert.KernelIdeal.main_v0) : Cert.PairDist.SD.Idx → EReal) = WR (Proc.devRef .tc Cert.ReferenceIdeal.main_v13))
    (ht : (WK (Proc.devRef .tc Cert.KernelIdeal.main_arg1) : IVec Cert.KernelIdeal.S4096 32) = WR (Proc.devRef .tc Cert.ReferenceIdeal.main_arg1)) :
    (StableHlo.after ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp Cert.KernelIdeal.τ Cert.KernelIdeal.sig (Elt Ideal)))).flatten WK (Proc.devRef .tc Cert.KernelIdeal.main_v118) : Cert.KernelIdeal.S_.Idx → EReal)
      = StableHlo.after (Cert.ReferenceIdeal.RefValue.tailOps (F := Ideal)) WR (Proc.devRef .tc Cert.ReferenceIdeal.main_v131) := by
  simp only [List.flatten_cons, List.flatten_nil, List.cons_append, List.nil_append, List.append_nil]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    reducer_eq, gather2_eq, gather1_eq, gatherRow_eq, concatenate_two]
  rw [hD, ht]

end Cert.Proof.TailEq

end
-- ==== Proof.lean ====
/-
  The kernel computes the 4096 × 4096 matrix of pairwise distances of the rows of its first argument block by block:
  an 8 × 8 grid of 512 × 512 blocks, block (bi, bj) from row blocks bi and bj of the one argument matrix. The reference
  computes the same matrix by whole-array operations. Both compute, at (i, j),
      sqrt (max ε ((‖x_i‖² + ‖x_j‖²) − 2 · ⟨x_i, x_j⟩))
  with the same grouping and the same two words for ε and 2, so the two matrices are one function of the argument
  (`Cert.PairDist.dist`). The operations that follow — the hardest positive and the hardest negative of each row by a
  masked maximum and a masked minimum with the index of the last true entry, three gathers, the three terms of the
  loss, the mean — are the same in both programs, applied to equal distance matrices and equal labels, so equal
  arguments give equal results. No law beyond those of finite sums in a commutative monoid is used, so the
  precondition (finite entries) is never opened.
-/
import proofs.«117172_j65712999629574_1_alg».proof.Defs
import proofs.«117172_j65712999629574_1_alg».proof.Proof.Gen.Kernel
import proofs.«117172_j65712999629574_1_alg».proof.Proof.Gen.KernelIdeal
import proofs.«117172_j65712999629574_1_alg».proof.Proof.Gen.ReferenceIdeal
import proofs.«117172_j65712999629574_1_alg».proof.Proof.Gen.Pre_finite_inputs
import proofs.«117172_j65712999629574_1_alg».proof.Proof.WLaunch
import proofs.«117172_j65712999629574_1_alg».proof.Proof.KLaunch
import proofs.«117172_j65712999629574_1_alg».proof.Proof.KFinal
import proofs.«117172_j65712999629574_1_alg».proof.Proof.RefDist
import proofs.«117172_j65712999629574_1_alg».proof.Proof.TailEq

noncomputable section

namespace Cert.Proof

open Idealize.ShloMosaic Idealize.ShloMosaic.TcCoe Idealize.SL.Sem

/-- The kernel as printed runs, and its argument arrays end unchanged. -/
theorem frame_k : Cert.frame_Kernel := fun m ρ _ => Cert.Kernel.Hand.frame (F := Bits) m ρ

/-- The kernel at the ideal values runs, and its argument arrays end unchanged. -/
theorem frame_ki : Cert.frame_KernelIdeal := fun m ρ _ => Cert.KernelIdeal.Hand.frame (F := Ideal) m ρ

/-- The reference runs, and its argument arrays end unchanged. -/
theorem frame_ri : Cert.frame_ReferenceIdeal := Cert.ReferenceIdeal.RefValue.frame_ri

/-- The idealization rewrote no operation. -/
theorem preserves : Cert.preserves_Kernel_KernelIdeal := trivial

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.ReferenceIdeal.nD)

/-- From first arguments that agree, the kernel's result array when its region is left and the reference's square
    root hold one matrix: the pairwise distances of the rows of that argument. -/
theorem dist_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.KernelIdeal.Hand.Wx m c (Proc.devRef .tc Cert.KernelIdeal.main_v0) : Cert.PairDist.SD.Idx → EReal)
      = StableHlo.after (Cert.ReferenceIdeal.RefValue.headOps (F := Ideal)) (StableHlo.launchContents m' c)
          (Proc.devRef .tc Cert.ReferenceIdeal.main_v13) := by
  have e1 := Cert.ReferenceIdeal.RefValue.head_dist (StableHlo.launchContents m' c)
  have e2 : StableHlo.launchContents m' c (Proc.devRef .tc Cert.ReferenceIdeal.main_arg0)
      = m ((c.tc : Thread Cert.KernelIdeal.nD Cert.KernelIdeal.τ).loc Cert.KernelIdeal.main_arg0) := h0
  rw [e2] at e1
  exact (Cert.KernelIdeal.Hand.Wx_v0 m c).trans ((Cert.KernelIdeal.KValue.final2 m c).trans e1.symm)

/-- From second arguments that agree, the labels the two programs read after that point are equal: neither the
    kernel's region nor the reference's operations up to the square root write them. -/
theorem label_agree
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.KernelIdeal.Hand.Wx m c (Proc.devRef .tc Cert.KernelIdeal.main_arg1) : IVec Cert.KernelIdeal.S4096 32)
      = StableHlo.after (Cert.ReferenceIdeal.RefValue.headOps (F := Ideal)) (StableHlo.launchContents m' c)
          (Proc.devRef .tc Cert.ReferenceIdeal.main_arg1) :=
  (Cert.KernelIdeal.Hand.Wx_ne m c Cert.KernelIdeal.main_arg1 (by decide)).trans
    (h1.symm.trans (Cert.ReferenceIdeal.RefValue.head_arg1 (StableHlo.launchContents m' c)).symm)

end Agree

/-- At the ideal values, from memories that agree on the two arguments: the kernel's region leaves the distance matrix of
    the first argument in its result array, the reference's operations up to the square root leave the same matrix, and
    the operations after are the same in both over equal distance matrices and equal labels; so the two results are
    equal, and no operation of either program writes an argument. -/
theorem algebraic : Cert.algebraic_KernelIdeal_ReferenceIdeal := by
  intro m ρ m' ρ' _ hagree
  refine ⟨fun c => Cert.KernelIdeal.Hand.Wfin m c (Proc.devRef .tc Cert.KernelIdeal.main_v118), ?_, ?_⟩
  · exact (θ_run (Cert.KernelIdeal.defs (F := Ideal)) _ _).mono
      (fun _ h c => ⟨(h c).2.1,
        ((h c).1 0).trans (((Cert.KernelIdeal.Hand.dats m 0 c).arrAt_in 0 rfl _).trans (Cert.KernelIdeal.Hand.A_eq m c 0)),
        (h c).2.2⟩)
      (Cert.KernelIdeal.Hand.run_main (F := Ideal) m ρ)
  · exact (θ_run (Cert.ReferenceIdeal.defs (F := Ideal)) _ _).mono
      (fun _ h c =>
        ⟨(h c Cert.ReferenceIdeal.main_v131).trans
          (Cert.Proof.TailEq.tail_eq (Cert.KernelIdeal.Hand.Wx m c)
            (StableHlo.after (Cert.ReferenceIdeal.RefValue.headOps (F := Ideal)) (StableHlo.launchContents m' c))
            (dist_agree m m' c (hagree c).1) (label_agree m m' c (hagree c).2)).symm,
         (h c Cert.ReferenceIdeal.main_arg0).trans
          ((Cert.ReferenceIdeal.RefValue.tail_arg0 (StableHlo.after Cert.ReferenceIdeal.RefValue.headOps (StableHlo.launchContents m' c))).trans
            (Cert.ReferenceIdeal.RefValue.head_arg0 (StableHlo.launchContents m' c))),
         (h c Cert.ReferenceIdeal.main_arg1).trans
          ((Cert.ReferenceIdeal.RefValue.tail_arg1 (StableHlo.after Cert.ReferenceIdeal.RefValue.headOps (StableHlo.launchContents m' c))).trans
            (Cert.ReferenceIdeal.RefValue.head_arg1 (StableHlo.launchContents m' c)))⟩)
      (Cert.ReferenceIdeal.RefValue.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
